-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x576x256x256 : Shape := ⟨4, ![4, 576, 256, 256]⟩
abbrev S6x1x1 : Shape := ⟨3, ![6, 1, 1]⟩
abbrev S_ : Shape := ⟨0, ![]⟩

class Facts : Prop where
  bcast_S_S4x576x256x256 : S_.BroadcastsInDim S4x576x256x256 (![] : Fin 0 → Fin S4x576x256x256.rank)
  reducesTo_S4x576x256x256_S_d0_1_2_3 : S4x576x256x256.ReducesTo [0, 1, 2, 3] S_
  h_S_ : 0 < S_.numel
  bcast_S_S6x1x1 : S_.BroadcastsInDim S6x1x1 (![] : Fin 0 → Fin S6x1x1.rank)
  reducesTo_S6x1x1_S_d0_1_2 : S6x1x1.ReducesTo [0, 1, 2] S_

variable [Facts]

def fn {F : FTy → Type} [FloatOps F] (main_arg0 : FVec F S4x576x256x256 .f32) (main_arg1 : FVec F S6x1x1 .f32) : IVec S_ 1 :=
  let main_v0 : FVec F S4x576x256x256 .f32 := Host.absf main_arg0
  let main_cst : FVec F S_ .f32 := constant S_ .f32 0x7F800000#32
  let main_v1 : FVec F S4x576x256x256 .f32 := broadcastInDim S4x576x256x256 ![] bcast_S_S4x576x256x256 main_cst
  let main_v2 : IVec S4x576x256x256 1 := cmpf .olt main_v0 main_v1
  let main_c : IVec S_ 1 := constantI S_ 1 1#1
  let main_v3 : IVec S_ 1 := (fun x v => Host.reduce IntOp.andi x v reducesTo_S4x576x256x256_S_d0_1_2_3 h_S_) main_v2 main_c
  let main_v4 : FVec F S6x1x1 .f32 := Host.absf main_arg1
  let main_cst_0 : FVec F S_ .f32 := constant S_ .f32 0x7F800000#32
  let main_v5 : FVec F S6x1x1 .f32 := broadcastInDim S6x1x1 ![] bcast_S_S6x1x1 main_cst_0
  let main_v6 : IVec S6x1x1 1 := cmpf .olt main_v4 main_v5
  let main_c_1 : IVec S_ 1 := constantI S_ 1 1#1
  let main_v7 : IVec S_ 1 := (fun x v => Host.reduce IntOp.andi x v reducesTo_S6x1x1_S_d0_1_2 h_S_) main_v6 main_c_1
  let main_v8 : IVec S_ 1 := andi main_v3 main_v7
  main_v8
-- ==== Kernel.lean ====
abbrev S4x576x256x256 : Shape := ⟨4, ![4, 576, 256, 256]⟩
abbrev S6x1x1 : Shape := ⟨3, ![6, 1, 1]⟩
abbrev S4x576x65536 : Shape := ⟨3, ![4, 576, 65536]⟩
abbrev S4x6x32x32 : Shape := ⟨4, ![4, 6, 32, 32]⟩
abbrev S1x32x32768 : Shape := ⟨3, ![1, 32, 32768]⟩
abbrev S1x1x1 : Shape := ⟨3, ![1, 1, 1]⟩
abbrev S1x1x32x32 : Shape := ⟨4, ![1, 1, 32, 32]⟩
abbrev S32x32 : Shape := ⟨2, ![32, 32]⟩
abbrev S32x1 : Shape := ⟨2, ![32, 1]⟩
abbrev S32x32768 : Shape := ⟨2, ![32, 32768]⟩
abbrev S32 : Shape := ⟨1, ![32]⟩
abbrev S32768x32 : Shape := ⟨2, ![32768, 32]⟩
abbrev S1x32 : Shape := ⟨2, ![1, 32]⟩
abbrev S4x192x65536 : Shape := ⟨3, ![4, 192, 65536]⟩
abbrev S4x192x256x256 : Shape := ⟨4, ![4, 192, 256, 256]⟩

abbrev nBuf : Space → Nat
  | .hbm => 6
  | .vmem => 17
  | .smem => 0
  | _ => 0

abbrev bufTy : (tb : Table) → Fin (tcTables nBuf tb) → BufTy
  | .hbm, ⟨0, _⟩ => ⟨S4x576x256x256, .f32⟩
  | .hbm, ⟨1, _⟩ => ⟨S6x1x1, .f32⟩
  | .hbm, ⟨2, _⟩ => ⟨S4x576x65536, .f32⟩
  | .hbm, ⟨3, _⟩ => ⟨S4x6x32x32, .f32⟩
  | .hbm, ⟨4, _⟩ => ⟨S4x192x65536, .f32⟩
  | .hbm, ⟨5, _⟩ => ⟨S4x192x256x256, .f32⟩
  | .local _ .vmem, ⟨0, _⟩ => ⟨S1x32x32768, .f32⟩
  | .local _ .vmem, ⟨1, _⟩ => ⟨S1x32x32768, .f32⟩
  | .local _ .vmem, ⟨2, _⟩ => ⟨S1x32x32768, .f32⟩
  | .local _ .vmem, ⟨3, _⟩ => ⟨S1x32x32768, .f32⟩
  | .local _ .vmem, ⟨4, _⟩ => ⟨S1x1x1, .f32⟩
  | .local _ .vmem, ⟨5, _⟩ => ⟨S1x1x1, .f32⟩
  | .local _ .vmem, ⟨6, _⟩ => ⟨S1x1x32x32, .f32⟩
  | .local _ .vmem, ⟨7, _⟩ => ⟨S1x1x32x32, .f32⟩
  | .local _ .vmem, ⟨8, _⟩ => ⟨S32x32, .f32⟩
  | .local _ .vmem, ⟨9, _⟩ => ⟨S32x1, .f32⟩
  | .local _ .vmem, ⟨10, _⟩ => ⟨S32x1, .f32⟩
  | .local _ .vmem, ⟨11, _⟩ => ⟨S1x1x32x32, .f32⟩
  | .local _ .vmem, ⟨12, _⟩ => ⟨S1x1x32x32, .f32⟩
  | .local _ .vmem, ⟨13, _⟩ => ⟨S1x32x32768, .f32⟩
  | .local _ .vmem, ⟨14, _⟩ => ⟨S1x32x32768, .f32⟩
  | .local _ .vmem, ⟨15, _⟩ => ⟨S1x32x32768, .f32⟩
  | .local _ .vmem, ⟨16, _⟩ => ⟨S1x32x32768, .f32⟩
  | _, _ => ⟨S4x576x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![4, 6, 2], ![false, false, false]⟩

def k0_cond2 (i : grid0.Coords) : BitVec 1 :=
  let arg2 : BitVec 32 := BitVec.ofNat 32 (i 2).val
  let c1_i32 : BitVec 32 := 1#32
  let v32 : BitVec 1 := Scalar.cmpi .eq arg2 c1_i32
  let v33 : BitVec 32 := Scalar.extui v32
  let c0_i32_20 : BitVec 32 := 0#32
  let v34 : BitVec 1 := Scalar.cmpi .ne v33 c0_i32_20
  v34

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 6, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1x32x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x32x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x32x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S4x576x256x256_S4x576x65536 : S4x576x256x256.ShapeCasts S4x576x65536
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x32x32768_S1x32x32768_0_0_0 : ∀ a, (![0, 0, 0] : Fin 3 → Nat) a + S1x32x32768.size a ≤ S1x32x32768.size a
  h_S1x32x32768 : 0 < S1x32x32768.numel
  shapeCasts_S1x32x32768_S32x32768 : S1x32x32768.ShapeCasts S32x32768
  reduces_S32x32768_S32 : S32x32768.Reduces [1] S32
  shapeCasts_S32_S32x1 : S32.ShapeCasts S32x1
  bitsLt_bf16_f32 : FTy.bits .bf16 < FTy.bits .f32
  transposes_S32x32768_p1_0_S32768x32 : S32x32768.Transposes [1, 0] S32768x32
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  transposes_S32x1_p1_0_S1x32 : S32x1.Transposes [1, 0] S1x32
  broadcasts_S32x1_S32x32 : S32x1.Broadcasts S32x32
  broadcasts_S1x32_S32x32 : S1x32.Broadcasts S32x32
  reduces_S32x32_S32 : S32x32.Reduces [1] S32
  inb_S1x1x32x32_S1x1x32x32_0_0_0_0 : ∀ a, (![0, 0, 0, 0] : Fin 4 → Nat) a + S1x1x32x32.size a ≤ S1x1x32x32.size a
  h_S1x1x32x32 : 0 < S1x1x32x32.numel
  shapeCasts_S1x1x32x32_S32x32 : S1x1x32x32.ShapeCasts S32x32
  shapeCasts_S32x32_S1x1x32x32 : S32x32.ShapeCasts S1x1x32x32
  shapeCasts_S32x32768_S1x32x32768 : S32x32768.ShapeCasts S1x32x32768
  shapeCasts_S4x192x65536_S4x192x256x256 : S4x192x65536.ShapeCasts S4x192x256x256
  dot_S32x32768_S32768x32_S32x32_1_0_0_1_n_n_wf : DotDims.WF S32x32768 S32768x32 S32x32 [1] [0] [0] [1] [] []
  dot_S32x32_S32x32768_S32x32768_1_0_0_1_n_n_wf : DotDims.WF S32x32 S32x32768 S32x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32768.size a ≤ S4x576x65536.size a
  hwx0_0 : ∀ i : grid0.Coords, EltTy.bits .f32 = 32 ∨ (Rect.block (s := S4x576x65536) S1x32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32768.size a ≤ S4x576x65536.size a
  hwx0_1 : ∀ i : grid0.Coords, EltTy.bits .f32 = 32 ∨ (Rect.block (s := S4x576x65536) S1x32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S6x1x1.size a
  hwx0_2 : ∀ i : grid0.Coords, EltTy.bits .f32 = 32 ∨ (Rect.block (s := S6x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32x32.size a ≤ S4x6x32x32.size a
  hwx0_3 : ∀ i : grid0.Coords, EltTy.bits .f32 = 32 ∨ (Rect.block (s := S4x6x32x32) S1x1x32x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x32x32.size a ≤ S4x6x32x32.size a
  hwx1_0 : ∀ i : grid1.Coords, EltTy.bits .f32 = 32 ∨ (Rect.block (s := S4x6x32x32) S1x1x32x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x32768.size a ≤ S4x576x65536.size a
  hwx1_1 : ∀ i : grid1.Coords, EltTy.bits .f32 = 32 ∨ (Rect.block (s := S4x576x65536) S1x32x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x32768.size a ≤ S4x192x65536.size a
  hwx1_2 : ∀ i : grid1.Coords, EltTy.bits .f32 = 32 ∨ (Rect.block (s := S4x192x65536) S1x32x32768.size (cc1_transform_2 i) (hinb1_2 i)).WholeWords (EltTy.packing .f32)

variable [Facts₀]

def dot_S32x32768_S32768x32_S32x32_1_0_0_1_n_n : DotDims S32x32768 S32768x32 S32x32 where
  lhsContracting := [1]
  rhsContracting := [0]
  lhsNonContracting := [0]
  rhsNonContracting := [1]
  lhsBatch := []
  rhsBatch := []
  wf := dot_S32x32768_S32768x32_S32x32_1_0_0_1_n_n_wf
def dot_S32x32_S32x32768_S32x32768_1_0_0_1_n_n : DotDims S32x32 S32x32768 S32x32768 where
  lhsContracting := [1]
  rhsContracting := [0]
  lhsNonContracting := [0]
  rhsNonContracting := [1]
  lhsBatch := []
  rhsBatch := []
  wf := dot_S32x32_S32x32768_S32x32768_1_0_0_1_n_n_wf

abbrev win0_0 : Pipeline.Window sig grid0 :=
  Pipeline.Window.ofSpec (Memref.whole main_v0) S1x32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x32x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1x1x32x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x32x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32x32768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x576x256x256 : Shape := ⟨4, ![4, 576, 256, 256]⟩
abbrev S6x1x1 : Shape := ⟨3, ![6, 1, 1]⟩
abbrev S4x192x256x256 : Shape := ⟨4, ![4, 192, 256, 256]⟩
abbrev S4x6x32x65536 : Shape := ⟨4, ![4, 6, 32, 65536]⟩
abbrev S_ : Shape := ⟨0, ![]⟩
abbrev S4x6x32 : Shape := ⟨3, ![4, 6, 32]⟩
abbrev S4x6x32x1 : Shape := ⟨4, ![4, 6, 32, 1]⟩
abbrev S4x6x32x32 : Shape := ⟨4, ![4, 6, 32, 32]⟩
abbrev S1x6x1x1 : Shape := ⟨4, ![1, 6, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x576x256x256, .f32⟩
  | .hbm, ⟨1, _⟩ => ⟨S6x1x1, .f32⟩
  | .hbm, ⟨2, _⟩ => ⟨S4x192x256x256, .f32⟩
  | .hbm, ⟨3, _⟩ => ⟨S4x192x256x256, .f32⟩
  | .hbm, ⟨4, _⟩ => ⟨S4x192x256x256, .f32⟩
  | .hbm, ⟨5, _⟩ => ⟨S4x6x32x65536, .f32⟩
  | .hbm, ⟨6, _⟩ => ⟨S4x6x32x65536, .f32⟩
  | .hbm, ⟨7, _⟩ => ⟨S4x6x32x65536, .f32⟩
  | .hbm, ⟨8, _⟩ => ⟨S4x6x32x65536, .f32⟩
  | .hbm, ⟨9, _⟩ => ⟨S_, .f32⟩
  | .hbm, ⟨10, _⟩ => ⟨S4x6x32, .f32⟩
  | .hbm, ⟨11, _⟩ => ⟨S4x6x32x1, .f32⟩
  | .hbm, ⟨12, _⟩ => ⟨S4x6x32x1, .f32⟩
  | .hbm, ⟨13, _⟩ => ⟨S_, .f32⟩
  | .hbm, ⟨14, _⟩ => ⟨S4x6x32x1, .f32⟩
  | .hbm, ⟨15, _⟩ => ⟨S4x6x32x1, .f32⟩
  | .hbm, ⟨16, _⟩ => ⟨S4x6x32x65536, .f32⟩
  | .hbm, ⟨17, _⟩ => ⟨S4x6x32x65536, .f32⟩
  | .hbm, ⟨18, _⟩ => ⟨S4x6x32x65536, .f32⟩
  | .hbm, ⟨19, _⟩ => ⟨S_, .f32⟩
  | .hbm, ⟨20, _⟩ => ⟨S4x6x32, .f32⟩
  | .hbm, ⟨21, _⟩ => ⟨S4x6x32x1, .f32⟩
  | .hbm, ⟨22, _⟩ => ⟨S4x6x32x1, .f32⟩
  | .hbm, ⟨23, _⟩ => ⟨S_, .f32⟩
  | .hbm, ⟨24, _⟩ => ⟨S4x6x32x1, .f32⟩
  | .hbm, ⟨25, _⟩ => ⟨S4x6x32x1, .f32⟩
  | .hbm, ⟨26, _⟩ => ⟨S4x6x32x65536, .f32⟩
  | .hbm, ⟨27, _⟩ => ⟨S4x6x32x65536, .f32⟩
  | .hbm, ⟨28, _⟩ => ⟨S4x6x32x32, .f32⟩
  | .hbm, ⟨29, _⟩ => ⟨S1x6x1x1, .f32⟩
  | .hbm, ⟨30, _⟩ => ⟨S4x6x32x32, .f32⟩
  | .hbm, ⟨31, _⟩ => ⟨S4x6x32x32, .f32⟩
  | .hbm, ⟨32, _⟩ => ⟨S_, .f32⟩
  | .hbm, ⟨33, _⟩ => ⟨S4x6x32, .f32⟩
  | .hbm, ⟨34, _⟩ => ⟨S_, .f32⟩
  | .hbm, ⟨35, _⟩ => ⟨S4x6x32, .f32⟩
  | .hbm, ⟨36, _⟩ => ⟨S4x6x32, .f32⟩
  | .hbm, ⟨37, _⟩ => ⟨S4x6x32x1, .f32⟩
  | .hbm, ⟨38, _⟩ => ⟨S4x6x32x32, .f32⟩
  | .hbm, ⟨39, _⟩ => ⟨S4x6x32x32, .f32⟩
  | .hbm, ⟨40, _⟩ => ⟨S4x6x32x32, .f32⟩
  | .hbm, ⟨41, _⟩ => ⟨S_, .f32⟩
  | .hbm, ⟨42, _⟩ => ⟨S4x6x32, .f32⟩
  | .hbm, ⟨43, _⟩ => ⟨S4x6x32x1, .f32⟩
  | .hbm, ⟨44, _⟩ => ⟨S4x6x32x32, .f32⟩
  | .hbm, ⟨45, _⟩ => ⟨S4x6x32x32, .f32⟩
  | .hbm, ⟨46, _⟩ => ⟨S4x6x32x65536, .f32⟩
  | .hbm, ⟨47, _⟩ => ⟨S4x192x256x256, .f32⟩
  | _, _ => ⟨S4x576x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  slices_S4x576x256x256_S4x192x256x256_0_0_0_0 : S4x576x256x256.Slices ![0, 0, 0, 0] S4x192x256x256
  slices_S4x576x256x256_S4x192x256x256_0_192_0_0 : S4x576x256x256.Slices ![0, 192, 0, 0] S4x192x256x256
  slices_S4x576x256x256_S4x192x256x256_0_384_0_0 : S4x576x256x256.Slices ![0, 384, 0, 0] S4x192x256x256
  shapeCasts_S4x192x256x256_S4x6x32x65536 : S4x192x256x256.ShapeCasts S4x6x32x65536
  reducesTo_S4x6x32x65536_S4x6x32_d3 : S4x6x32x65536.ReducesTo [3] S4x6x32
  h_S_ : 0 < S_.numel
  bcast_S4x6x32_S4x6x32x1_0_1_2 : S4x6x32.BroadcastsInDim S4x6x32x1 (![0, 1, 2] : Fin 3 → Fin S4x6x32x1.rank)
  bcast_S_S4x6x32x1 : S_.BroadcastsInDim S4x6x32x1 (![] : Fin 0 → Fin S4x6x32x1.rank)
  bcast_S4x6x32x1_S4x6x32x65536_0_1_2_3 : S4x6x32x1.BroadcastsInDim S4x6x32x65536 (![0, 1, 2, 3] : Fin 4 → Fin S4x6x32x65536.rank)
  bcast_S6x1x1_S1x6x1x1_1_2_3 : S6x1x1.BroadcastsInDim S1x6x1x1 (![1, 2, 3] : Fin 3 → Fin S1x6x1x1.rank)
  bcast_S1x6x1x1_S4x6x32x32_0_1_2_3 : S1x6x1x1.BroadcastsInDim S4x6x32x32 (![0, 1, 2, 3] : Fin 4 → Fin S4x6x32x32.rank)
  reducesTo_S4x6x32x32_S4x6x32_d3 : S4x6x32x32.ReducesTo [3] S4x6x32
  bcast_S_S4x6x32 : S_.BroadcastsInDim S4x6x32 (![] : Fin 0 → Fin S4x6x32.rank)
  bcast_S4x6x32x1_S4x6x32x32_0_1_2_3 : S4x6x32x1.BroadcastsInDim S4x6x32x32 (![0, 1, 2, 3] : Fin 4 → Fin S4x6x32x32.rank)
  shapeCasts_S4x6x32x65536_S4x192x256x256 : S4x6x32x65536.ShapeCasts S4x192x256x256
  dot_S4x6x32x65536_S4x6x32x65536_S4x6x32x32_3_3_2_2_01_01_wf : DotDims.WF S4x6x32x65536 S4x6x32x65536 S4x6x32x32 [3] [3] [2] [2] [0, 1] [0, 1]
  dot_S4x6x32x32_S4x6x32x65536_S4x6x32x65536_3_2_2_3_01_01_wf : DotDims.WF S4x6x32x32 S4x6x32x65536 S4x6x32x65536 [3] [2] [2] [3] [0, 1] [0, 1]

variable [Facts₀]

def dot_S4x6x32x65536_S4x6x32x65536_S4x6x32x32_3_3_2_2_01_01 : DotDims S4x6x32x65536 S4x6x32x65536 S4x6x32x32 where
  lhsContracting := [3]
  rhsContracting := [3]
  lhsNonContracting := [2]
  rhsNonContracting := [2]
  lhsBatch := [0, 1]
  rhsBatch := [0, 1]
  wf := dot_S4x6x32x65536_S4x6x32x65536_S4x6x32x32_3_3_2_2_01_01_wf
def dot_S4x6x32x32_S4x6x32x65536_S4x6x32x65536_3_2_2_3_01_01 : DotDims S4x6x32x32 S4x6x32x65536 S4x6x32x65536 where
  lhsContracting := [3]
  rhsContracting := [2]
  lhsNonContracting := [2]
  rhsNonContracting := [3]
  lhsBatch := [0, 1]
  rhsBatch := [0, 1]
  wf := dot_S4x6x32x32_S4x6x32x65536_S4x6x32x65536_3_2_2_3_01_01_wf

class Facts : Prop extends Facts₀ where

variable [Facts]
-- ==== Proof.K.AttnBase.lean ====
/-
  The first kernel, point by point: which of its two branches a grid point takes, where its output window rests, and
  the names of the buffers it is called with.

  The grid is 4 × 6 × 2; the last coordinate walks the two halves of the 65536 positions. At the first half the
  kernel clears its three accumulators before adding the half's contributions; at the second it adds and then
  turns the accumulated sums into the softmax weights, the only point at which it stores into its output window.
-/
import proofs.«142308_j30777735643434_1_alg».proof.Proof.Gen.Kernel.Launch
import proofs.«142308_j30777735643434_1_alg».proof.Proof.Gen.Kernel.Skeleton
import proofs.«142308_j30777735643434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first half of the positions: the accumulators are cleared. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second half: the weights are computed and stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first-half point nothing is stored into the output window and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At a second-half point the output window is stored into. -/
theorem liveAt0_3_B : ∀ t : Fin cfg0.N, ¬cond0_0 (grid0.coords t) → cond0_1 (grid0.coords t) → cfg0.idle 3 (grid0.coords t) = false := by decide +kernel

/-! ## The buffers the kernel is called with -/

abbrev ms0_0 (t : Fin cfg0.N) : Memref sig .tc .vmem S1x32x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x32x32 .f32 := win0_3.stage (cfg0.slots t 3)
abbrev hs0_3 (t : Fin cfg0.N) : (ms0_3 t).IsWhole := hstage0_3 ((cfg0.slots t 3).cast nbuf0_3)
/-- The three accumulators: inner products, squared norms of the query rows, squared norms of the key rows. -/
abbrev scM0_0 : Memref sig .tc .vmem S32x32 .f32 := Memref.whole cc0_scratch0
abbrev scM0_1 : Memref sig .tc .vmem S32x1 .f32 := Memref.whole cc0_scratch1
abbrev scM0_2 : Memref sig .tc .vmem S32x1 .f32 := Memref.whole cc0_scratch2
abbrev VS0_0 : View sig .tc .vmem S32x32 .f32 := scM0_0.view
abbrev VS0_1 : View sig .tc .vmem S32x1 .f32 := scM0_1.view
abbrev VS0_2 : View sig .tc .vmem S32x1 .f32 := scM0_2.view
/-- One staging buffer of the output window, through which its contents are stated. -/
abbrev VO0_3 : View sig .tc .vmem S1x1x32x32 .f32 := (Memref.whole cc0_stg3_0 : Memref sig .tc .vmem S1x1x32x32 .f32).view

/-- The scoped buffers of the core that are neither a staging buffer of this kernel nor one of its accumulators:
    the second kernel's staging buffers, each at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant is before the first point: the accumulators at anything, the other scoped buffers,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherStaging c) ∗ (∃ r, prngReg c r)) := by
  unfold Pipeline.ΦA otherStaging; rw [scopedRest0_eq]; simp only [scM0_0, scM0_1, scM0_2, owns_whole]; try rfl

end Cert.Kernel.Hand

end
-- ==== Proof.K.AttnRunA.lean ====
/-
  The first kernel's body at a first-half point: the accumulators are cleared, then the half's sums of squares and
  inner products are added; nothing is stored into the output window. Each accumulator ends holding the list
  of stores the body makes into it.
-/
import proofs.«142308_j30777735643434_1_alg».proof.Proof.K.AttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first-half point, on whole buffers: the two row blocks at their contents, the temperature and the
    output window handed back untouched, the accumulators at anything; it runs to the continuation with each
    accumulator holding its stores. -/
noncomputable def kernelRun0_A (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (hc0 : cond0_0 i) (hc1 : ¬cond0_1 i)
    (x0 : Vec F S1x32x32768 .f32) (x1 : Vec F S1x32x32768 .f32) :
    Σ' (LS0 : List (View.Piece (Elt F) S32x32 .f32)) (LS1 : List (View.Piece (Elt F) S32x1 .f32)), { LS2 : List (View.Piece (Elt F) S32x1 .f32) //
      ∀ (x2 : Vec F S1x1x1 .f32) (xi3 : Vec F S1x1x32x32 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun x2 xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AttnRunB.lean ====
/-
  The first kernel's body at a second-half point: the half's sums are added to what the first half left in the
  accumulators, and the softmax weights computed from the totals are stored into the output window. Each buffer
  ends holding the list of stores the body makes into it.
-/
import proofs.«142308_j30777735643434_1_alg».proof.Proof.K.AttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a second-half point, on whole buffers: the two row blocks and the temperature at their contents,
    the accumulators at what the point before left, the output window at anything; it runs to the continuation with
    the output window and each accumulator holding its stores. -/
noncomputable def kernelRun0_B (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (hc0 : ¬cond0_0 i) (hc1 : cond0_1 i)
    (x0 : Vec F S1x32x32768 .f32) (x1 : Vec F S1x32x32768 .f32) (x2 : Vec F S1x1x1 .f32)
    (xs0 : Vec F S32x32 .f32) (xs1 : Vec F S32x1 .f32) (xs2 : Vec F S32x1 .f32) :
    Σ' (L3 : List (View.Piece (Elt F) S1x1x32x32 .f32)) (LS0 : List (View.Piece (Elt F) S32x32 .f32)) (LS1 : List (View.Piece (Elt F) S32x1 .f32)), { LS2 : List (View.Piece (Elt F) S32x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Attn.lean ====
/-
  The first kernel as a pipeline: what its three accumulators and its output window hold after each grid point, the
  proof data built from that, and the body's obligation at every point.

  A first-half point clears the accumulators and adds its half's sums; the following second-half point adds its own
  and stores the weights. So what a second-half point leaves depends on the point before it, and a first-half point
  on nothing but its own blocks.
-/
import proofs.«142308_j30777735643434_1_alg».proof.Proof.K.AttnRunA
import proofs.«142308_j30777735643434_1_alg».proof.Proof.K.AttnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What a point leaves, case by case -/

section Cases
variable (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole)

/-- A first-half point's stores cover each accumulator. -/
theorem scoverA_0 (hc0 : cond0_0 i) (hc1 : ¬cond0_1 i) (x0 x1 : Vec F S1x32x32768 .f32) (y : S32x32.Idx) :
    ∃ pc ∈ (kernelRun0_A c i arg3 harg3 arg4 harg4 arg5 harg5 arg6 harg6 arg7 harg7 arg8 harg8 arg9 harg9 hc0 hc1 x0 x1).1, y ∈ pc.1.set :=
  View.cover_of_tiledL (kernelRun0_A c i arg3 harg3 arg4 harg4 arg5 harg5 arg6 harg6 arg7 harg7 arg8 harg8 arg9 harg9 hc0 hc1 x0 x1).1 S32x32.size (by sl_kernel_rfl) y
theorem scoverA_1 (hc0 : cond0_0 i) (hc1 : ¬cond0_1 i) (x0 x1 : Vec F S1x32x32768 .f32) (y : S32x1.Idx) :
    ∃ pc ∈ (kernelRun0_A c i arg3 harg3 arg4 harg4 arg5 harg5 arg6 harg6 arg7 harg7 arg8 harg8 arg9 harg9 hc0 hc1 x0 x1).2.1, y ∈ pc.1.set :=
  View.cover_of_tiledL (kernelRun0_A c i arg3 harg3 arg4 harg4 arg5 harg5 arg6 harg6 arg7 harg7 arg8 harg8 arg9 harg9 hc0 hc1 x0 x1).2.1 S32x1.size (by sl_kernel_rfl) y
theorem scoverA_2 (hc0 : cond0_0 i) (hc1 : ¬cond0_1 i) (x0 x1 : Vec F S1x32x32768 .f32) (y : S32x1.Idx) :
    ∃ pc ∈ (kernelRun0_A c i arg3 harg3 arg4 harg4 arg5 harg5 arg6 harg6 arg7 harg7 arg8 harg8 arg9 harg9 hc0 hc1 x0 x1).2.2.1, y ∈ pc.1.set :=
  View.cover_of_tiledL (kernelRun0_A c i arg3 harg3 arg4 harg4 arg5 harg5 arg6 harg6 arg7 harg7 arg8 harg8 arg9 harg9 hc0 hc1 x0 x1).2.2.1 S32x1.size (by sl_kernel_rfl) y

/-- What a first-half point leaves in the accumulators: its stores read back. -/
def soutA_0 (hc0 : cond0_0 i) (hc1 : ¬cond0_1 i) (x0 x1 : Vec F S1x32x32768 .f32) : Vec F S32x32 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1).1)
def soutA_1 (hc0 : cond0_0 i) (hc1 : ¬cond0_1 i) (x0 x1 : Vec F S1x32x32768 .f32) : Vec F S32x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1).2.1)
def soutA_2 (hc0 : cond0_0 i) (hc1 : ¬cond0_1 i) (x0 x1 : Vec F S1x32x32768 .f32) : Vec F S32x1 .f32 :=
  VS0_2.read (Elt F) (VS0_2.writes (Elt F) VS0_2.junk (kernelRun0_A c i arg3 harg3 arg4 harg4 arg5 harg5 arg6 harg6 arg7 harg7 arg8 harg8 arg9 harg9 hc0 hc1 x0 x1).2.2.1)

/-- A second-half point's stores cover the output window and each accumulator. -/
theorem coverB_3 (hc0 : ¬cond0_0 i) (hc1 : cond0_1 i) (x0 x1 : Vec F S1x32x32768 .f32) (x2 : Vec F S1x1x1 .f32) (xs0 : Vec F S32x32 .f32) (xs1 xs2 : Vec F S32x1 .f32) (y : S1x1x32x32.Idx) :
    ∃ pc ∈ (kernelRun0_B c i arg3 harg3 arg4 harg4 arg5 harg5 arg6 harg6 arg7 harg7 arg8 harg8 arg9 harg9 hc0 hc1 x0 x1 x2 xs0 xs1 xs2).1, y ∈ pc.1.set :=
  View.cover_of_tiledL (kernelRun0_B c i arg3 harg3 arg4 harg4 arg5 harg5 arg6 harg6 arg7 harg7 arg8 harg8 arg9 harg9 hc0 hc1 x0 x1 x2 xs0 xs1 xs2).1 S1x1x32x32.size (by sl_kernel_rfl) y
theorem scoverB_0 (hc0 : ¬cond0_0 i) (hc1 : cond0_1 i) (x0 x1 : Vec F S1x32x32768 .f32) (x2 : Vec F S1x1x1 .f32) (xs0 : Vec F S32x32 .f32) (xs1 xs2 : Vec F S32x1 .f32) (y : S32x32.Idx) :
    ∃ pc ∈ (kernelRun0_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.1 S32x32.size (by sl_kernel_rfl) y
theorem scoverB_1 (hc0 : ¬cond0_0 i) (hc1 : cond0_1 i) (x0 x1 : Vec F S1x32x32768 .f32) (x2 : Vec F S1x1x1 .f32) (xs0 : Vec F S32x32 .f32) (xs1 xs2 : Vec F S32x1 .f32) (y : S32x1.Idx) :
    ∃ pc ∈ (kernelRun0_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.1 S32x1.size (by sl_kernel_rfl) y
theorem scoverB_2 (hc0 : ¬cond0_0 i) (hc1 : cond0_1 i) (x0 x1 : Vec F S1x32x32768 .f32) (x2 : Vec F S1x1x1 .f32) (xs0 : Vec F S32x32 .f32) (xs1 xs2 : Vec F S32x1 .f32) (y : S32x1.Idx) :
    ∃ pc ∈ (kernelRun0_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.2.1 S32x1.size (by sl_kernel_rfl) y

/-- What a second-half point leaves in the output window and in the accumulators. -/
def outB_3 (hc0 : ¬cond0_0 i) (hc1 : cond0_1 i) (x0 x1 : Vec F S1x32x32768 .f32) (x2 : Vec F S1x1x1 .f32) (xs0 : Vec F S32x32 .f32) (xs1 xs2 : Vec F S32x1 .f32) : Vec F S1x1x32x32 .f32 :=
  VO0_3.read (Elt F) (VO0_3.writes (Elt F) VO0_3.junk (kernelRun0_B c i arg3 harg3 arg4 harg4 arg5 harg5 arg6 harg6 arg7 harg7 arg8 harg8 arg9 harg9 hc0 hc1 x0 x1 x2 xs0 xs1 xs2).1)
def soutB_0 (hc0 : ¬cond0_0 i) (hc1 : cond0_1 i) (x0 x1 : Vec F S1x32x32768 .f32) (x2 : Vec F S1x1x1 .f32) (xs0 : Vec F S32x32 .f32) (xs1 xs2 : Vec F S32x1 .f32) : Vec F S32x32 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1 xs2).2.1)
def soutB_1 (hc0 : ¬cond0_0 i) (hc1 : cond0_1 i) (x0 x1 : Vec F S1x32x32768 .f32) (x2 : Vec F S1x1x1 .f32) (xs0 : Vec F S32x32 .f32) (xs1 xs2 : Vec F S32x1 .f32) : Vec F S32x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1 xs2).2.2.1)
def soutB_2 (hc0 : ¬cond0_0 i) (hc1 : cond0_1 i) (x0 x1 : Vec F S1x32x32768 .f32) (x2 : Vec F S1x1x1 .f32) (xs0 : Vec F S32x32 .f32) (xs1 xs2 : Vec F S32x1 .f32) : Vec F S32x1 .f32 :=
  VS0_2.read (Elt F) (VS0_2.writes (Elt F) VS0_2.junk (kernelRun0_B c i arg3 harg3 arg4 harg4 arg5 harg5 arg6 harg6 arg7 harg7 arg8 harg8 arg9 harg9 hc0 hc1 x0 x1 x2 xs0 xs1 xs2).2.2.2.1)

end Cases

/-! ## What the buffers hold after each point -/

/-- The output window and the three accumulators after the body at position `n`: a first-half point's from its own
    blocks (the output window untouched: a placeholder nothing consults), a second-half point's from its blocks and
    what the point before left in the accumulators. -/
def outsAt0 (c : Dev nD) : (n : ℕ) → n < cfg0.N → Vec F S1x1x32x32 .f32 × Vec F S32x32 .f32 × Vec F S32x1 .f32 × Vec F S32x1 .f32
  | 0, hn =>
    (VO0_3.read (Elt F) VO0_3.junk,
     soutA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
     soutA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
     soutA_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      (VO0_3.read (Elt F) VO0_3.junk,
       soutA_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩),
       soutA_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩),
       soutA_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      (outB_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2,
       soutB_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2,
       soutB_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2,
       soutB_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a first-half point. -/
theorem outsAt0_A (c : Dev nD) (t : Fin cfg0.N) (h0 : t.val % 2 = 0) (h1 : ¬t.val % 2 = 1) :
    outsAt0 V c t.val t.isLt =
      (VO0_3.read (Elt F) VO0_3.junk,
       soutA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
       soutA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
       soutA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

/-- `outsAt0` at a second-half point, over what the point before left. -/
theorem outsAt0_B (c : Dev nD) (t : Fin cfg0.N) (h0 : ¬t.val % 2 = 0) (h1 : t.val % 2 = 1) :
    outsAt0 V c t.val t.isLt =
      (outB_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
       soutB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
       soutB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
       soutB_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region's invariant, point by point -/

/-- Before the first point the accumulators hold anything; after point `n` they hold what that point left. The
    second kernel's staging buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ otherStaging c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ otherStaging c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ otherStaging c) ∗ (∃ r, prngReg c r)) := by
  cases n with
  | zero => exact absurd rfl hz
  | succ n => rfl

/-! ## The proof data -/

/-- The arrays as the region finds them; after the body each input window at its block and the output window at
    `outsAt0`; the invariant `PhiS`; the array both row windows read is held half and half; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the input windows hold their blocks; a first-half point needs nothing of the
    accumulators and hands the output window back untouched; a second-half point finds in the accumulators what the
    first-half point before it left. Each accumulator is handed back at the point's named contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 48 := lt_of_lt_of_eq t.isLt (show cfg0.N = 48 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold soutA_0 soutA_1 soutA_2; (try dsimp only)
    have hΦ : (dat0 V c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ otherStaging c) ∗ (∃ r, prngReg c r)) : sProp 𝕄) := by
      by_cases hz : t.val = 0
      · rw [PhiS_castSucc V c t, PhiS_zero V c _ _ hz, PhiA0_eq]
      · rw [PhiS_castSucc V c t, PhiS_pos V c _ _ hz]
        iintro ⟨⟨HS0, HS1, HS2, HR⟩, Hg⟩
        isplitr [Hg]
        · isplitl [HS0]; · iexists _; iexact HS0
          isplitl [HS1]; · iexists _; iexact HS1
          isplitl [HS2]; · iexists _; iexact HS2
          iexact HR
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS0, HS1, HS2, HR⟩, Hg⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR Hg]
    · isplitr [Hg]
      · isplitl [HS0]
        · unfold owns; iexists _; isplitr
          swap; · iexact HS0
          ipureintro; exact View.read_writes_of_cover _ _ _ _ _ (scoverA_0 c _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _)
        isplitl [HS2]
        · unfold owns; iexists _; isplitr
          swap; · iexact HS2
          ipureintro; exact View.read_writes_of_cover _ _ _ _ _ (scoverA_2 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h0 h1]
    unfold outB_3 soutB_0 soutB_1 soutB_2; (try dsimp only)
    rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 HR Hg]
    · isplitr [Hg]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _ _)
        isplitl [HS1]
        · unfold owns; iexists _; isplitr
          swap; · iexact HS1
          ipureintro; exact View.read_writes_of_cover _ _ _ _ _ (scoverB_1 c _ _ _ _ _ _ _ _ _ _ _ _ _ _ _ _ _ _ _ _ _ _ _)
        isplitl [HS2]
        · unfold owns; iexists _; isplitr
          swap; · iexact HS2
          ipureintro; exact View.read_writes_of_cover _ _ _ _ _ (scoverB_2 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB_3 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulators' contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 48 := N_0; omega), PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

end Cert.Kernel.Hand

end
-- ==== Proof.K.Shares.lean ====
/-
  The first kernel's arrays as plain buffers. Its two row windows read one array, held half and half; the
  temperature and the weights each have a buffer of their own.
-/
import proofs.«142308_j30777735643434_1_alg».proof.Proof.K.Attn

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows' arrays at contents `F`, when the two row windows agree on their one array, are three whole buffers. -/
theorem arrays0_iff (c : Dev nD) (F' : (w : Fin cfg0.W) → Buf (Elt F) ((cfg0.win w).arr.view.loc (c : Thread nD τ)))
    (G0 : Buf (Elt F) ((c : Thread nD τ).loc main_v0)) (h0 : F' 0 = G0) (h1 : F' 1 = G0) :
    (dat0 V c).arrays F' ⊣⊢ (iprop((((c : Thread nD τ).loc main_v0) ↦{fullShare} G0) ∗ (((c : Thread nD τ).loc main_arg1) ↦{fullShare} F' 2) ∗ (((c : Thread nD τ).loc main_v1) ↦{fullShare} F' 3)) : sProp 𝕄) := by
  unfold Dat.arrays
  rw [bigSep_W0]
  rw [(arr_whole0 0).set_eq_univ, (arr_whole0 2).set_eq_univ, (arr_whole0 3).set_eq_univ]
  rw [h0, h1]
  rw [show (dat0 V c).share 0 = fullShare.left from rfl, show (dat0 V c).share 1 = fullShare.right from rfl,
    show (dat0 V c).share 2 = fullShare from rfl, show (dat0 V c).share 3 = fullShare from rfl]
  have hs : ((((c : Thread nD τ).loc main_v0) ↦{fullShare} G0) : sProp 𝕄) ⊣⊢ iprop((((c : Thread nD τ).loc main_v0) ↦{fullShare.left} G0) ∗ (((c : Thread nD τ).loc main_v0) ↦{fullShare.right} G0)) := pointsTo_share (PosShare.mem_left_op_right fullShare)
  have hs1 := hs.1
  have hs2 := hs.2
  constructor
  · iintro ⟨Hl, Hr, HA, HB⟩
    isplitl [Hl Hr]
    · iapply hs2; isplitl [Hl]; · iexact Hl
      iexact Hr
    isplitl [HA]; · iexact HA
    iexact HB
  · iintro ⟨Hf, HA, HB⟩
    ihave Hsp := hs1 $$ Hf
    icases Hsp with ⟨Hl, Hr⟩
    isplitl [Hl]; · iexact Hl
    isplitl [Hr]; · iexact Hr
    isplitl [HA]; · iexact HA
    iexact HB

end Cert.Kernel.Hand

end
-- ==== Proof.K.Out.lean ====
/-
  The second kernel of the program: on each grid point it reads a head's 32×32 block of weights and a
  32×32768 block of value rows, multiplies them, and writes the 32×32768 block of the result.  This module
  states what the kernel leaves in its output buffer as a function of the two blocks it reads, proves the
  kernel's triple, and packages the pipeline's proof data together with its body obligation, generic in the
  float interpretation and in the contents `V` of the arrays when the kernel starts.
-/
import proofs.«142308_j30777735643434_1_alg».proof.Proof.Gen.Kernel.Launch
import proofs.«142308_j30777735643434_1_alg».proof.Proof.Gen.Kernel.Skeleton
import proofs.«142308_j30777735643434_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the second kernel starts
variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' buffer holds the head's block at every point, fetched there or not: the block index depends only
    on the batch entry and the head, so between two fetches it has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value rows' buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x1x32x32 := Rect.unit (s := S1x1x32x32) ![0, 0, 0, 0] S1x1x32x32.size inb_S1x1x32x32_S1x1x32x32_0_0_0_0
abbrev r1_1 : Rect S1x32x32768 := Rect.unit (s := S1x32x32768) ![0, 0, 0] S1x32x32768.size inb_S1x32x32768_S1x32x32768_0_0_0
abbrev r1_2 : Rect S1x32x32768 := Rect.unit (s := S1x32x32768) ![0, 0, 0] S1x32x32768.size inb_S1x32x32768_S1x32x32768_0_0_0

/-! ## What the body leaves in the output buffer -/

/-- The output buffer after the body, from the two input blocks: its one store, of the product of the weights
    block and the value block. -/
def out1_2 (x0 : Vec F S1x1x32x32 .f32) (x1 : Vec F S1x32x32768 .f32) : Vec F S1x32x32768 .f32 :=
  View.canon [⟨r1_2, k1_pay1 (View.ld x0 r1_0) (View.ld x1 r1_1)⟩]

/-- The one store is of the whole buffer, so it covers it. -/
theorem cover1_2 (p0 : Vec F S1x32x32768 .f32) (y : S1x32x32768.Idx) :
    ∃ pc ∈ ([⟨r1_2, p0⟩] : List (View.Piece (Elt F) S1x32x32768 .f32)), y ∈ pc.1.set :=
  View.cover_of_tiled [⟨r1_2, p0⟩] S1x32x32768.size (by rfl) y

/-! ## The body's triple -/

set_option maxHeartbeats 1000000 in
/-- The kernel body on whole buffers, the inputs' at contents `x0`, `x1` and the output's at anything, runs to the
    continuation holding the inputs' as they were and the output's at `out1_2 x0 x1`. -/
theorem sound_kernel1 (c : Dev nD) (E : Set ℕ) (i : grid1.Coords) (arg3 : Memref sig .tc .vmem S1x1x32x32 .f32) (harg3 : arg3.IsWhole) (arg4 : Memref sig .tc .vmem S1x32x32768 .f32) (harg4 : arg4.IsWhole) (arg5 : Memref sig .tc .vmem S1x32x32768 .f32) (harg5 : arg5.IsWhole)
    (x0 : Vec F S1x1x32x32 .f32) (x1 : Vec F S1x32x32768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__out_kernel i arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second kernel's pipeline on core `c`: the arrays as the kernel finds them; after the body
    at point `t` each input's buffer at its block and the output's at `out1_2` of the two blocks; the invariant is the
    untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the contents the kernel finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as four segments — a reshape on the host, the first kernel's region, the second kernel's region,
  a reshape on the host — and its run: every execution ends, nothing faults, the arguments are unchanged and the
  result buffer holds the last reshape of what the second region left.

  Between segments the thread holds every unscoped buffer at named contents. The first region's two row windows
  read ONE array: its full share is dealt to them half and half on entry and put together again on exit.
-/
import proofs.«142308_j30777735643434_1_alg».proof.Proof.K.Shares
import proofs.«142308_j30777735643434_1_alg».proof.Proof.K.Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the first reshape: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: the weights' buffer at what its write-backs left. -/
def W2 (c : Dev nD) : Valuation τ sig (Elt F) :=
  Function.update (W1 m c) (Proc.devRef .tc main_v1) ((dat0 (V1 m) c).arrAt 3 cfg0.N)
abbrev V2 : (c : Dev nD) → (b : Ref sig .tc) → Buf (Elt F) ((c : Thread nD τ).loc b) := fun c b => W2 m c b
/-- After the second region: its arrays at what the pipeline leaves, every other buffer as entered. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the last reshape. -/
abbrev W4 : Dev nD → Valuation τ sig (Elt F) := fun c => StableHlo.after hostOps2 (W3 m c)

theorem W2_v1 (c : Dev nD) : W2 m c (Proc.devRef .tc main_v1) = (dat0 (V1 m) c).arrAt 3 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W4_of_ne (c : Dev nD) (b : Ref sig .tc) (hb : b ≠ main_v3) : W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_of_ne m c main_arg0 (by decide)).trans <| (W1_of_ne m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_of_ne m c main_arg1 (by decide)).trans <| (W1_of_ne m c main_arg1 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The first region: entry and exit of its arrays -/

/-- Entry: the unscoped buffers at the region's entry contents are its arrays — the one array the row windows share
    dealt half and half — and the buffers that bypass it. -/
theorem entry0 (c : Dev nD) :
    (unscopedBufs c (V1 m c) : sProp 𝕄) ⊢ iprop((dat0 (V1 m) c).arrays ((dat0 (V1 m) c).arrAt · 0) ∗ Pipeline.unscopedRest (Ix := Unit) (Name := ℕ) (U := UR sig nD τ) (Lvl := ℕ) spec0 c (V1 m c)) := by
  rw [Pipeline.unscopedBufs_split₀ cfgs 0 (by decide) c (V1 m c)]
  refine BIClass.sep_mono ?_ .rfl
  unfold Pipeline.arrBufs
  rw [bigSep_eq_bigSepL_of_eq [main_v0, main_arg1, main_v1] (by decide) (by decide)]
  refine BIBase.Entails.trans ?_ (arrays0_iff (V1 m) c _ (V1 m c main_v0) rfl rfl).2
  exact .rfl

/-- Exit: the arrays after the last point — the shared array and the temperature as entered, the weights at what the
    write-backs left — and the bypassing buffers are the unscoped buffers at the next boundary's contents. -/
theorem exit0 (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs c (V2 m c) : sProp 𝕄) := by
  rw [Pipeline.unscopedBufs_split₀ cfgs 0 (by decide) c (V2 m c)]
  refine BIClass.sep_mono ?_ ?_
  · unfold Pipeline.arrBufs
    rw [bigSep_eq_bigSepL_of_eq [main_v0, main_arg1, main_v1] (by decide) (by decide)]
    refine BIBase.Entails.trans (arrays0_iff (V1 m) c _ (V1 m c main_v0) ((dat0 (V1 m) c).arrAt_in 0 rfl _) ((dat0 (V1 m) c).arrAt_in 1 rfl _)).1 ?_
    rw [show (dat0 (V1 m) c).arrAt 2 cfg0.N = V2 m c main_arg1 from ((dat0 (V1 m) c).arrAt_in 2 rfl _).trans (W2_of_ne m c main_arg1 (by decide)).symm,
      show (dat0 (V1 m) c).arrAt 3 cfg0.N = V2 m c main_v1 from (W2_v1 m c).symm,
      show V1 m c main_v0 = V2 m c main_v0 from (W2_of_ne m c main_v0 (by decide)).symm]
    exact .rfl
  · show _ ⊢ (Pipeline.unscopedRest (Ix := Unit) (Name := ℕ) (U := UR sig nD τ) (Lvl := ℕ) spec0 c (V2 m c) : sProp 𝕄)
    rw [unscopedRest0_eq, unscopedRest0_eq]
    rw [show V2 m c main_arg0 = V1 m c main_arg0 from W2_of_ne m c main_arg0 (by decide),
      show V2 m c main_v2 = V1 m c main_v2 from W2_of_ne m c main_v2 (by decide),
      show V2 m c main_v3 = V1 m c main_v3 from W2_of_ne m c main_v3 (by decide)]

/-! ## The regions as segments -/

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := exit0 m c
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame, and the result buffer read: the arguments as launched, the result at the last boundary's contents. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v3 (by decide)),
     (h c _ (mem_uc main_arg0 (by decide))).trans (W4_main_arg0 m c),
     (h c _ (mem_uc main_arg1 (by decide))).trans (W4_main_arg1 m c)⟩) (run_all m ρ)

end Cert.Kernel.Hand

end
-- ==== Proof.KI.AttnBase.lean ====
/-
  The first kernel, point by point: which of its two branches a grid point takes, where its output window rests, and
  the names of the buffers it is called with.

  The grid is 4 × 6 × 2; the last coordinate walks the two halves of the 65536 positions. At the first half the
  kernel clears its three accumulators before adding the half's contributions; at the second it adds and then
  turns the accumulated sums into the softmax weights, the only point at which it stores into its output window.
-/
import proofs.«142308_j30777735643434_1_alg».proof.Proof.Gen.KernelIdeal.Launch
import proofs.«142308_j30777735643434_1_alg».proof.Proof.Gen.KernelIdeal.Skeleton
import proofs.«142308_j30777735643434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first half of the positions: the accumulators are cleared. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second half: the weights are computed and stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows rest -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At a first-half point nothing is stored into the output window and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At a second-half point the output window is stored into. -/
theorem liveAt0_3_B : ∀ t : Fin cfg0.N, ¬cond0_0 (grid0.coords t) → cond0_1 (grid0.coords t) → cfg0.idle 3 (grid0.coords t) = false := by decide +kernel

/-! ## The buffers the kernel is called with -/

abbrev ms0_0 (t : Fin cfg0.N) : Memref sig .tc .vmem S1x32x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x32x32 .f32 := win0_3.stage (cfg0.slots t 3)
abbrev hs0_3 (t : Fin cfg0.N) : (ms0_3 t).IsWhole := hstage0_3 ((cfg0.slots t 3).cast nbuf0_3)
/-- The three accumulators: inner products, squared norms of the query rows, squared norms of the key rows. -/
abbrev scM0_0 : Memref sig .tc .vmem S32x32 .f32 := Memref.whole cc0_scratch0
abbrev scM0_1 : Memref sig .tc .vmem S32x1 .f32 := Memref.whole cc0_scratch1
abbrev scM0_2 : Memref sig .tc .vmem S32x1 .f32 := Memref.whole cc0_scratch2
abbrev VS0_0 : View sig .tc .vmem S32x32 .f32 := scM0_0.view
abbrev VS0_1 : View sig .tc .vmem S32x1 .f32 := scM0_1.view
abbrev VS0_2 : View sig .tc .vmem S32x1 .f32 := scM0_2.view
/-- One staging buffer of the output window, through which its contents are stated. -/
abbrev VO0_3 : View sig .tc .vmem S1x1x32x32 .f32 := (Memref.whole cc0_stg3_0 : Memref sig .tc .vmem S1x1x32x32 .f32).view

/-- The scoped buffers of the core that are neither a staging buffer of this kernel nor one of its accumulators:
    the second kernel's staging buffers, each at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the region's invariant is before the first point: the accumulators at anything, the other scoped buffers,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherStaging c) ∗ (∃ r, prngReg c r)) := by
  unfold Pipeline.ΦA otherStaging; rw [scopedRest0_eq]; simp only [scM0_0, scM0_1, scM0_2, owns_whole]; try rfl

end Cert.KernelIdeal.Hand

end
-- ==== Proof.KI.AttnRunA.lean ====
/-
  The first kernel's body at a first-half point: the accumulators are cleared, then the half's sums of squares and
  inner products are added; nothing is stored into the output window. Each accumulator ends holding the list
  of stores the body makes into it.
-/
import proofs.«142308_j30777735643434_1_alg».proof.Proof.KI.AttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first-half point, on whole buffers: the two row blocks at their contents, the temperature and the
    output window handed back untouched, the accumulators at anything; it runs to the continuation with each
    accumulator holding its stores. -/
noncomputable def kernelRun0_A (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (hc0 : cond0_0 i) (hc1 : ¬cond0_1 i)
    (x0 : Vec F S1x32x32768 .f32) (x1 : Vec F S1x32x32768 .f32) :
    Σ' (LS0 : List (View.Piece (Elt F) S32x32 .f32)) (LS1 : List (View.Piece (Elt F) S32x1 .f32)), { LS2 : List (View.Piece (Elt F) S32x1 .f32) //
      ∀ (x2 : Vec F S1x1x1 .f32) (xi3 : Vec F S1x1x32x32 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun x2 xi3 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AttnRunB.lean ====
/-
  The first kernel's body at a second-half point: the half's sums are added to what the first half left in the
  accumulators, and the softmax weights computed from the totals are stored into the output window. Each buffer
  ends holding the list of stores the body makes into it.
-/
import proofs.«142308_j30777735643434_1_alg».proof.Proof.KI.AttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a second-half point, on whole buffers: the two row blocks and the temperature at their contents,
    the accumulators at what the point before left, the output window at anything; it runs to the continuation with
    the output window and each accumulator holding its stores. -/
noncomputable def kernelRun0_B (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole) (hc0 : ¬cond0_0 i) (hc1 : cond0_1 i)
    (x0 : Vec F S1x32x32768 .f32) (x1 : Vec F S1x32x32768 .f32) (x2 : Vec F S1x1x1 .f32)
    (xs0 : Vec F S32x32 .f32) (xs1 : Vec F S32x1 .f32) (xs2 : Vec F S32x1 .f32) :
    Σ' (L3 : List (View.Piece (Elt F) S1x1x32x32 .f32)) (LS0 : List (View.Piece (Elt F) S32x32 .f32)) (LS1 : List (View.Piece (Elt F) S32x1 .f32)), { LS2 : List (View.Piece (Elt F) S32x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Attn.lean ====
/-
  The first kernel as a pipeline: what its three accumulators and its output window hold after each grid point, the
  proof data built from that, and the body's obligation at every point.

  A first-half point clears the accumulators and adds its half's sums; the following second-half point adds its own
  and stores the weights. So what a second-half point leaves depends on the point before it, and a first-half point
  on nothing but its own blocks.
-/
import proofs.«142308_j30777735643434_1_alg».proof.Proof.KI.AttnRunA
import proofs.«142308_j30777735643434_1_alg».proof.Proof.KI.AttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What a point leaves, case by case -/

section Cases
variable (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole)

/-- A first-half point's stores cover each accumulator. -/
theorem scoverA_0 (hc0 : cond0_0 i) (hc1 : ¬cond0_1 i) (x0 x1 : Vec F S1x32x32768 .f32) (y : S32x32.Idx) :
    ∃ pc ∈ (kernelRun0_A c i arg3 harg3 arg4 harg4 arg5 harg5 arg6 harg6 arg7 harg7 arg8 harg8 arg9 harg9 hc0 hc1 x0 x1).1, y ∈ pc.1.set :=
  View.cover_of_tiledL (kernelRun0_A c i arg3 harg3 arg4 harg4 arg5 harg5 arg6 harg6 arg7 harg7 arg8 harg8 arg9 harg9 hc0 hc1 x0 x1).1 S32x32.size (by sl_kernel_rfl) y
theorem scoverA_1 (hc0 : cond0_0 i) (hc1 : ¬cond0_1 i) (x0 x1 : Vec F S1x32x32768 .f32) (y : S32x1.Idx) :
    ∃ pc ∈ (kernelRun0_A c i arg3 harg3 arg4 harg4 arg5 harg5 arg6 harg6 arg7 harg7 arg8 harg8 arg9 harg9 hc0 hc1 x0 x1).2.1, y ∈ pc.1.set :=
  View.cover_of_tiledL (kernelRun0_A c i arg3 harg3 arg4 harg4 arg5 harg5 arg6 harg6 arg7 harg7 arg8 harg8 arg9 harg9 hc0 hc1 x0 x1).2.1 S32x1.size (by sl_kernel_rfl) y
theorem scoverA_2 (hc0 : cond0_0 i) (hc1 : ¬cond0_1 i) (x0 x1 : Vec F S1x32x32768 .f32) (y : S32x1.Idx) :
    ∃ pc ∈ (kernelRun0_A c i arg3 harg3 arg4 harg4 arg5 harg5 arg6 harg6 arg7 harg7 arg8 harg8 arg9 harg9 hc0 hc1 x0 x1).2.2.1, y ∈ pc.1.set :=
  View.cover_of_tiledL (kernelRun0_A c i arg3 harg3 arg4 harg4 arg5 harg5 arg6 harg6 arg7 harg7 arg8 harg8 arg9 harg9 hc0 hc1 x0 x1).2.2.1 S32x1.size (by sl_kernel_rfl) y

/-- What a first-half point leaves in the accumulators: its stores read back. -/
def soutA_0 (hc0 : cond0_0 i) (hc1 : ¬cond0_1 i) (x0 x1 : Vec F S1x32x32768 .f32) : Vec F S32x32 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1).1)
def soutA_1 (hc0 : cond0_0 i) (hc1 : ¬cond0_1 i) (x0 x1 : Vec F S1x32x32768 .f32) : Vec F S32x1 .f32 :=
  VS0_1.read (Elt F) (VS0_1.writes (Elt F) VS0_1.junk (kernelRun0_A c i arg3 harg3 arg4 harg4 arg5 harg5 arg6 harg6 arg7 harg7 arg8 harg8 arg9 harg9 hc0 hc1 x0 x1).2.1)
def soutA_2 (hc0 : cond0_0 i) (hc1 : ¬cond0_1 i) (x0 x1 : Vec F S1x32x32768 .f32) : Vec F S32x1 .f32 :=
  VS0_2.read (Elt F) (VS0_2.writes (Elt F) VS0_2.junk (kernelRun0_A c i arg3 harg3 arg4 harg4 arg5 harg5 arg6 harg6 arg7 harg7 arg8 harg8 arg9 harg9 hc0 hc1 x0 x1).2.2.1)

/-- A second-half point's stores cover the output window and each accumulator. -/
theorem coverB_3 (hc0 : ¬cond0_0 i) (hc1 : cond0_1 i) (x0 x1 : Vec F S1x32x32768 .f32) (x2 : Vec F S1x1x1 .f32) (xs0 : Vec F S32x32 .f32) (xs1 xs2 : Vec F S32x1 .f32) (y : S1x1x32x32.Idx) :
    ∃ pc ∈ (kernelRun0_B c i arg3 harg3 arg4 harg4 arg5 harg5 arg6 harg6 arg7 harg7 arg8 harg8 arg9 harg9 hc0 hc1 x0 x1 x2 xs0 xs1 xs2).1, y ∈ pc.1.set :=
  View.cover_of_tiledL (kernelRun0_B c i arg3 harg3 arg4 harg4 arg5 harg5 arg6 harg6 arg7 harg7 arg8 harg8 arg9 harg9 hc0 hc1 x0 x1 x2 xs0 xs1 xs2).1 S1x1x32x32.size (by sl_kernel_rfl) y
theorem scoverB_0 (hc0 : ¬cond0_0 i) (hc1 : cond0_1 i) (x0 x1 : Vec F S1x32x32768 .f32) (x2 : Vec F S1x1x1 .f32) (xs0 : Vec F S32x32 .f32) (xs1 xs2 : Vec F S32x1 .f32) (y : S32x32.Idx) :
    ∃ pc ∈ (kernelRun0_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.1 S32x32.size (by sl_kernel_rfl) y
theorem scoverB_1 (hc0 : ¬cond0_0 i) (hc1 : cond0_1 i) (x0 x1 : Vec F S1x32x32768 .f32) (x2 : Vec F S1x1x1 .f32) (xs0 : Vec F S32x32 .f32) (xs1 xs2 : Vec F S32x1 .f32) (y : S32x1.Idx) :
    ∃ pc ∈ (kernelRun0_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.1 S32x1.size (by sl_kernel_rfl) y
theorem scoverB_2 (hc0 : ¬cond0_0 i) (hc1 : cond0_1 i) (x0 x1 : Vec F S1x32x32768 .f32) (x2 : Vec F S1x1x1 .f32) (xs0 : Vec F S32x32 .f32) (xs1 xs2 : Vec F S32x1 .f32) (y : S32x1.Idx) :
    ∃ pc ∈ (kernelRun0_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_B c i arg3 harg3 arg4 harg4 arg5 harg5 arg6 harg6 arg7 harg7 arg8 harg8 arg9 harg9 hc0 hc1 x0 x1 x2 xs0 xs1 xs2).2.2.2.1 S32x1.size (by sl_kernel_rfl) y

/-- What a second-half point leaves in the output window and in the accumulators. -/
def outB_3 (hc0 : ¬cond0_0 i) (hc1 : cond0_1 i) (x0 x1 : Vec F S1x32x32768 .f32) (x2 : Vec F S1x1x1 .f32) (xs0 : Vec F S32x32 .f32) (xs1 xs2 : Vec F S32x1 .f32) : Vec F S1x1x32x32 .f32 :=
  VO0_3.read (Elt F) (VO0_3.writes (Elt F) VO0_3.junk (kernelRun0_B c i arg3 harg3 arg4 harg4 arg5 harg5 arg6 harg6 arg7 harg7 arg8 harg8 arg9 harg9 hc0 hc1 x0 x1 x2 xs0 xs1 xs2).1)
def soutB_0 (hc0 : ¬cond0_0 i) (hc1 : cond0_1 i) (x0 x1 : Vec F S1x32x32768 .f32) (x2 : Vec F S1x1x1 .f32) (xs0 : Vec F S32x32 .f32) (xs1 xs2 : Vec F S32x1 .f32) : Vec F S32x32 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 xs0 xs1 xs2).2.1)
def soutB_1 (hc0 : ¬cond0_0 i) (hc1 : cond0_1 i) (x0 x1 : Vec F S1x32x32768 .f32) (x2 : Vec F S1x1x1 .f32) (xs0 : Vec F S32x32 .f32) (xs1 xs2 : Vec F S32x1 .f32) : Vec F S32x1 .f32 :=
  VS0_1.read (Elt F) (VS0_1.writes (Elt F) VS0_1.junk (kernelRun0_B c i arg3 harg3 arg4 harg4 arg5 harg5 arg6 harg6 arg7 harg7 arg8 harg8 arg9 harg9 hc0 hc1 x0 x1 x2 xs0 xs1 xs2).2.2.1)
def soutB_2 (hc0 : ¬cond0_0 i) (hc1 : cond0_1 i) (x0 x1 : Vec F S1x32x32768 .f32) (x2 : Vec F S1x1x1 .f32) (xs0 : Vec F S32x32 .f32) (xs1 xs2 : Vec F S32x1 .f32) : Vec F S32x1 .f32 :=
  VS0_2.read (Elt F) (VS0_2.writes (Elt F) VS0_2.junk (kernelRun0_B c i arg3 harg3 arg4 harg4 arg5 harg5 arg6 harg6 arg7 harg7 arg8 harg8 arg9 harg9 hc0 hc1 x0 x1 x2 xs0 xs1 xs2).2.2.2.1)

end Cases

/-! ## What the buffers hold after each point -/

/-- The output window and the three accumulators after the body at position `n`: a first-half point's from its own
    blocks (the output window untouched: a placeholder nothing consults), a second-half point's from its blocks and
    what the point before left in the accumulators. -/
def outsAt0 (c : Dev nD) : (n : ℕ) → n < cfg0.N → Vec F S1x1x32x32 .f32 × Vec F S32x32 .f32 × Vec F S32x1 .f32 × Vec F S32x1 .f32
  | 0, hn =>
    (VO0_3.read (Elt F) VO0_3.junk,
     soutA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
     soutA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
     soutA_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 2 = 0 then
      (VO0_3.read (Elt F) VO0_3.junk,
       soutA_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩),
       soutA_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩),
       soutA_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      (outB_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2,
       soutB_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2,
       soutB_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2,
       soutB_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr (show (n + 1) % 2 = 1 by omega)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a first-half point. -/
theorem outsAt0_A (c : Dev nD) (t : Fin cfg0.N) (h0 : t.val % 2 = 0) (h1 : ¬t.val % 2 = 1) :
    outsAt0 V c t.val t.isLt =
      (VO0_3.read (Elt F) VO0_3.junk,
       soutA_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
       soutA_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t),
       soutA_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

/-- `outsAt0` at a second-half point, over what the point before left. -/
theorem outsAt0_B (c : Dev nD) (t : Fin cfg0.N) (h0 : ¬t.val % 2 = 0) (h1 : t.val % 2 = 1) :
    outsAt0 V c t.val t.isLt =
      (outB_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
       soutB_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
       soutB_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2,
       soutB_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The region's invariant, point by point -/

/-- Before the first point the accumulators hold anything; after point `n` they hold what that point left. The
    second kernel's staging buffers and the generator register ride along. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ otherStaging c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2.1) ∗ owns (c : Thread nD τ) scM0_2 fullShare ((outsAt0 V c n hn).2.2.2) ∗ otherStaging c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2.1) ∗ owns (c : Thread nD τ) scM0_2 fullShare ((outsAt0 V c (n - 1) (by omega)).2.2.2) ∗ otherStaging c) ∗ (∃ r, prngReg c r)) := by
  cases n with
  | zero => exact absurd rfl hz
  | succ n => rfl

/-! ## The proof data -/

/-- The arrays as the region finds them; after the body each input window at its block and the output window at
    `outsAt0`; the invariant `PhiS`; the array both row windows read is held half and half; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the input windows hold their blocks; a first-half point needs nothing of the
    accumulators and hands the output window back untouched; a second-half point finds in the accumulators what the
    first-half point before it left. Each accumulator is handed back at the point's named contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 48 := lt_of_lt_of_eq t.isLt (show cfg0.N = 48 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold soutA_0 soutA_1 soutA_2; (try dsimp only)
    have hΦ : (dat0 V c).Φ t.castSucc ⊢ (iprop(iprop((∃ d, owns (c : Thread nD τ) scM0_0 fullShare d) ∗ (∃ d, owns (c : Thread nD τ) scM0_1 fullShare d) ∗ (∃ d, owns (c : Thread nD τ) scM0_2 fullShare d) ∗ otherStaging c) ∗ (∃ r, prngReg c r)) : sProp 𝕄) := by
      by_cases hz : t.val = 0
      · rw [PhiS_castSucc V c t, PhiS_zero V c _ _ hz, PhiA0_eq]
      · rw [PhiS_castSucc V c t, PhiS_pos V c _ _ hz]
        iintro ⟨⟨HS0, HS1, HS2, HR⟩, Hg⟩
        isplitr [Hg]
        · isplitl [HS0]; · iexists _; iexact HS0
          isplitl [HS1]; · iexists _; iexact HS1
          isplitl [HS2]; · iexists _; iexact HS2
          iexact HR
        iexact Hg
    iintro ⟨HΦ, Ho, ⟨%d0, H0⟩, ⟨%d1, H1⟩, ⟨%d2, H2⟩, ⟨%d3, H3⟩⟩
    ihave HΦ' := hΦ $$ HΦ
    icases HΦ' with ⟨⟨HS0, HS1, HS2, HR⟩, Hg⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t)).2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR Hg]
    · isplitr [Hg]
      · isplitl [HS0]
        · unfold owns; iexists _; isplitr
          swap; · iexact HS0
          ipureintro; exact View.read_writes_of_cover _ _ _ _ _ (scoverA_0 c _ _ _ _ _ _ _ _ _ _ _ _ _ _ _ _ _ _ _)
        isplitl [HS1]
        · unfold owns; iexists _; isplitr
          swap; · iexact HS1
          ipureintro; exact View.read_writes_of_cover _ _ _ _ _ (scoverA_1 c _ _ _ _ _ _ _ _ _ _ _ _ _ _ _ _ _ _ _)
        isplitl [HS2]
        · unfold owns; iexists _; isplitr
          swap; · iexact HS2
          ipureintro; exact View.read_writes_of_cover _ _ _ _ _ (scoverA_2 c _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
    rw [outsAt0_B V c t h0 h1]
    unfold outB_3 soutB_0 soutB_1 soutB_2; (try dsimp only)
    rw [PhiS_castSucc V c t, PhiS_pos V c _ _ hz]
    iintro ⟨⟨⟨HS0, HS1, HS2, HR⟩, Hg⟩, Ho, ⟨%d0, H0⟩, ⟨%d1, H1⟩, ⟨%d2, H2⟩, ⟨%d3, H3⟩⟩
    iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 HR Hg]
    · isplitr [Hg]
      · isplitl [HS0]
        · unfold owns; iexists _; isplitr
          swap; · iexact HS0
          ipureintro; exact View.read_writes_of_cover _ _ _ _ _ (scoverB_0 c _ _ _ _ _ _ _ _ _ _ _ _ _ _ _ _ _ _ _ _ _ _ _)
        isplitl [HS1]
        · unfold owns; iexists _; isplitr
          swap; · iexact HS1
          ipureintro; exact View.read_writes_of_cover _ _ _ _ _ (scoverB_1 c _ _ _ _ _ _ _ _ _ _ _ _ _ _ _ _ _ _ _ _ _ _ _)
        isplitl [HS2]
        · unfold owns; iexists _; isplitr
          swap; · iexact HS2
          ipureintro; exact View.read_writes_of_cover _ _ _ _ _ (scoverB_2 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB_3 c _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulators' contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 48 := N_0; omega), PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

end Cert.KernelIdeal.Hand

end
-- ==== Proof.KI.Shares.lean ====
/-
  The first kernel's arrays as plain buffers. Its two row windows read one array, held half and half; the
  temperature and the weights each have a buffer of their own.
-/
import proofs.«142308_j30777735643434_1_alg».proof.Proof.KI.Attn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows' arrays at contents `F`, when the two row windows agree on their one array, are three whole buffers. -/
theorem arrays0_iff (c : Dev nD) (F' : (w : Fin cfg0.W) → Buf (Elt F) ((cfg0.win w).arr.view.loc (c : Thread nD τ)))
    (G0 : Buf (Elt F) ((c : Thread nD τ).loc main_v0)) (h0 : F' 0 = G0) (h1 : F' 1 = G0) :
    (dat0 V c).arrays F' ⊣⊢ (iprop((((c : Thread nD τ).loc main_v0) ↦{fullShare} G0) ∗ (((c : Thread nD τ).loc main_arg1) ↦{fullShare} F' 2) ∗ (((c : Thread nD τ).loc main_v1) ↦{fullShare} F' 3)) : sProp 𝕄) := by
  unfold Dat.arrays
  rw [bigSep_W0]
  rw [(arr_whole0 0).set_eq_univ, (arr_whole0 2).set_eq_univ, (arr_whole0 3).set_eq_univ]
  rw [h0, h1]
  rw [show (dat0 V c).share 0 = fullShare.left from rfl, show (dat0 V c).share 1 = fullShare.right from rfl,
    show (dat0 V c).share 2 = fullShare from rfl, show (dat0 V c).share 3 = fullShare from rfl]
  have hs : ((((c : Thread nD τ).loc main_v0) ↦{fullShare} G0) : sProp 𝕄) ⊣⊢ iprop((((c : Thread nD τ).loc main_v0) ↦{fullShare.left} G0) ∗ (((c : Thread nD τ).loc main_v0) ↦{fullShare.right} G0)) := pointsTo_share (PosShare.mem_left_op_right fullShare)
  have hs1 := hs.1
  have hs2 := hs.2
  constructor
  · iintro ⟨Hl, Hr, HA, HB⟩
    isplitl [Hl Hr]
    · iapply hs2; isplitl [Hl]; · iexact Hl
      iexact Hr
    isplitl [HA]; · iexact HA
    iexact HB
  · iintro ⟨Hf, HA, HB⟩
    ihave Hsp := hs1 $$ Hf
    icases Hsp with ⟨Hl, Hr⟩
    isplitl [Hl]; · iexact Hl
    isplitl [Hr]; · iexact Hr
    isplitl [HA]; · iexact HA
    iexact HB

end Cert.KernelIdeal.Hand

end
-- ==== Proof.KI.Out.lean ====
/-
  The second kernel of the program: on each grid point it reads a head's 32×32 block of weights and a
  32×32768 block of value rows, multiplies them, and writes the 32×32768 block of the result.  This module
  states what the kernel leaves in its output buffer as a function of the two blocks it reads, proves the
  kernel's triple, and packages the pipeline's proof data together with its body obligation, generic in the
  float interpretation and in the contents `V` of the arrays when the kernel starts.
-/
import proofs.«142308_j30777735643434_1_alg».proof.Proof.Gen.KernelIdeal.Launch
import proofs.«142308_j30777735643434_1_alg».proof.Proof.Gen.KernelIdeal.Skeleton
import proofs.«142308_j30777735643434_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the second kernel starts
variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' buffer holds the head's block at every point, fetched there or not: the block index depends only
    on the batch entry and the head, so between two fetches it has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The value rows' buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x1x32x32 := Rect.unit (s := S1x1x32x32) ![0, 0, 0, 0] S1x1x32x32.size inb_S1x1x32x32_S1x1x32x32_0_0_0_0
abbrev r1_1 : Rect S1x32x32768 := Rect.unit (s := S1x32x32768) ![0, 0, 0] S1x32x32768.size inb_S1x32x32768_S1x32x32768_0_0_0
abbrev r1_2 : Rect S1x32x32768 := Rect.unit (s := S1x32x32768) ![0, 0, 0] S1x32x32768.size inb_S1x32x32768_S1x32x32768_0_0_0

/-! ## What the body leaves in the output buffer -/

/-- The output buffer after the body, from the two input blocks: its one store, of the product of the weights
    block and the value block. -/
def out1_2 (x0 : Vec F S1x1x32x32 .f32) (x1 : Vec F S1x32x32768 .f32) : Vec F S1x32x32768 .f32 :=
  View.canon [⟨r1_2, k1_pay1 (View.ld x0 r1_0) (View.ld x1 r1_1)⟩]

/-- The one store is of the whole buffer, so it covers it. -/
theorem cover1_2 (p0 : Vec F S1x32x32768 .f32) (y : S1x32x32768.Idx) :
    ∃ pc ∈ ([⟨r1_2, p0⟩] : List (View.Piece (Elt F) S1x32x32768 .f32)), y ∈ pc.1.set :=
  View.cover_of_tiled [⟨r1_2, p0⟩] S1x32x32768.size (by rfl) y

/-! ## The body's triple -/

set_option maxHeartbeats 1000000 in
/-- The kernel body on whole buffers, the inputs' at contents `x0`, `x1` and the output's at anything, runs to the
    continuation holding the inputs' as they were and the output's at `out1_2 x0 x1`. -/
theorem sound_kernel1 (c : Dev nD) (E : Set ℕ) (i : grid1.Coords) (arg3 : Memref sig .tc .vmem S1x1x32x32 .f32) (harg3 : arg3.IsWhole) (arg4 : Memref sig .tc .vmem S1x32x32768 .f32) (harg4 : arg4.IsWhole) (arg5 : Memref sig .tc .vmem S1x32x32768 .f32) (harg5 : arg5.IsWhole)
    (x0 : Vec F S1x1x32x32 .f32) (x1 : Vec F S1x32x32768 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (out1_2 x0 x1)) -∗ K ⟨⟩))
      ⊢ wp frame (wpE (defs₀ (F := F)) Variants.none c none) E (cc1__out_kernel i arg3 harg3 arg4 harg4 arg5 harg5) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second kernel's pipeline on core `c`: the arrays as the kernel finds them; after the body
    at point `t` each input's buffer at its block and the output's at `out1_2` of the two blocks; the invariant is the
    untouched rest; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the contents the kernel finds. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the kernel's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as four segments — a reshape on the host, the first kernel's region, the second kernel's region,
  a reshape on the host — and its run: every execution ends, nothing faults, the arguments are unchanged and the
  result buffer holds the last reshape of what the second region left.

  Between segments the thread holds every unscoped buffer at named contents. The first region's two row windows
  read ONE array: its full share is dealt to them half and half on entry and put together again on exit.
-/
import proofs.«142308_j30777735643434_1_alg».proof.Proof.KI.Shares
import proofs.«142308_j30777735643434_1_alg».proof.Proof.KI.Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the first reshape: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: the weights' buffer at what its write-backs left. -/
def W2 (c : Dev nD) : Valuation τ sig (Elt F) :=
  Function.update (W1 m c) (Proc.devRef .tc main_v1) ((dat0 (V1 m) c).arrAt 3 cfg0.N)
abbrev V2 : (c : Dev nD) → (b : Ref sig .tc) → Buf (Elt F) ((c : Thread nD τ).loc b) := fun c b => W2 m c b
/-- After the second region: its arrays at what the pipeline leaves, every other buffer as entered. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the last reshape. -/
abbrev W4 : Dev nD → Valuation τ sig (Elt F) := fun c => StableHlo.after hostOps2 (W3 m c)

theorem W2_v1 (c : Dev nD) : W2 m c (Proc.devRef .tc main_v1) = (dat0 (V1 m) c).arrAt 3 cfg0.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem W4_of_ne (c : Dev nD) (b : Ref sig .tc) (hb : b ≠ main_v3) : W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem W4_main_arg0 (c : Dev nD) : W4 m c (Proc.devRef .tc main_arg0) = m ((c : Thread nD τ).loc main_arg0) :=
  (W4_of_ne m c main_arg0 (by decide)).trans <| (W3_of_ne m c main_arg0 (by decide)).trans <| (W2_of_ne m c main_arg0 (by decide)).trans <| (W1_of_ne m c main_arg0 (by decide)).trans rfl
theorem W4_main_arg1 (c : Dev nD) : W4 m c (Proc.devRef .tc main_arg1) = m ((c : Thread nD τ).loc main_arg1) :=
  (W4_of_ne m c main_arg1 (by decide)).trans <| (W3_of_ne m c main_arg1 (by decide)).trans <| (W2_of_ne m c main_arg1 (by decide)).trans <| (W1_of_ne m c main_arg1 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The first region: entry and exit of its arrays -/

/-- Entry: the unscoped buffers at the region's entry contents are its arrays — the one array the row windows share
    dealt half and half — and the buffers that bypass it. -/
theorem entry0 (c : Dev nD) :
    (unscopedBufs c (V1 m c) : sProp 𝕄) ⊢ iprop((dat0 (V1 m) c).arrays ((dat0 (V1 m) c).arrAt · 0) ∗ Pipeline.unscopedRest (Ix := Unit) (Name := ℕ) (U := UR sig nD τ) (Lvl := ℕ) spec0 c (V1 m c)) := by
  rw [Pipeline.unscopedBufs_split₀ cfgs 0 (by decide) c (V1 m c)]
  refine BIClass.sep_mono ?_ .rfl
  unfold Pipeline.arrBufs
  rw [bigSep_eq_bigSepL_of_eq [main_v0, main_arg1, main_v1] (by decide) (by decide)]
  refine BIBase.Entails.trans ?_ (arrays0_iff (V1 m) c _ (V1 m c main_v0) rfl rfl).2
  exact .rfl

/-- Exit: the arrays after the last point — the shared array and the temperature as entered, the weights at what the
    write-backs left — and the bypassing buffers are the unscoped buffers at the next boundary's contents. -/
theorem exit0 (c : Dev nD) :
    iprop((dat0 (V1 m) c).arrays ((dat0 (V1 m) c).arrAt · cfg0.N) ∗ Pipeline.unscopedRest (Ix := Unit) (Name := ℕ) (U := UR sig nD τ) (Lvl := ℕ) spec0 c (V1 m c))
      ⊢ (unscopedBufs c (V2 m c) : sProp 𝕄) := by
  rw [Pipeline.unscopedBufs_split₀ cfgs 0 (by decide) c (V2 m c)]
  refine BIClass.sep_mono ?_ ?_
  · unfold Pipeline.arrBufs
    rw [bigSep_eq_bigSepL_of_eq [main_v0, main_arg1, main_v1] (by decide) (by decide)]
    refine BIBase.Entails.trans (arrays0_iff (V1 m) c _ (V1 m c main_v0) ((dat0 (V1 m) c).arrAt_in 0 rfl _) ((dat0 (V1 m) c).arrAt_in 1 rfl _)).1 ?_
    rw [show (dat0 (V1 m) c).arrAt 2 cfg0.N = V2 m c main_arg1 from ((dat0 (V1 m) c).arrAt_in 2 rfl _).trans (W2_of_ne m c main_arg1 (by decide)).symm,
      show (dat0 (V1 m) c).arrAt 3 cfg0.N = V2 m c main_v1 from (W2_v1 m c).symm,
      show V1 m c main_v0 = V2 m c main_v0 from (W2_of_ne m c main_v0 (by decide)).symm]
    exact .rfl
  · show _ ⊢ (Pipeline.unscopedRest (Ix := Unit) (Name := ℕ) (U := UR sig nD τ) (Lvl := ℕ) spec0 c (V2 m c) : sProp 𝕄)
    rw [unscopedRest0_eq, unscopedRest0_eq]
    rw [show V2 m c main_arg0 = V1 m c main_arg0 from W2_of_ne m c main_arg0 (by decide),
      show V2 m c main_v2 = V1 m c main_v2 from W2_of_ne m c main_v2 (by decide),
      show V2 m c main_v3 = V1 m c main_v3 from W2_of_ne m c main_v3 (by decide)]

/-! ## The regions as segments -/

set_option backward.isDefEq.respectTransparency.types false in
/-- The first region over the thread state: entered from every unscoped buffer at `W1`, left at `W2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := entry0 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := exit0 m c
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame, and the result buffer read: the arguments as launched, the result at the last boundary's contents. -/
theorem run_main : θ_run defs (onTc (τ := τ) (main (F := F))) ⟨m, fun _ => 0, ρ⟩ (fun r => ∀ c : Dev nD,
      r.2.mem ((c.tc : Thread nD τ).loc main_v3) = W4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v3 (by decide)),
     (h c _ (mem_uc main_arg0 (by decide))).trans (W4_main_arg0 m c),
     (h c _ (mem_uc main_arg1 (by decide))).trans (W4_main_arg1 m c)⟩) (run_all m ρ)

end Cert.KernelIdeal.Hand

end
-- ==== Proof.Spec.lean ====
/-
  The mathematics both programs compute, index by index on the extended reals.

  The input holds, per batch entry `b`, 576 channels over 256·256 = 65536 positions: channels 0–191 are the
  queries, 192–383 the keys, 384–575 the values, each split into 6 heads of 32 channels.  For a head, row `c` of
  the queries and row `d` of the keys are normalised by the larger of their Euclidean norm and a small constant;
  the 32×32 matrix of their inner products, times the head's temperature, is turned into row-wise softmax
  weights; the result is the weighted sum of the value rows.
-/
import Idealize.ShloMosaic.PureOps.Ideal
import Idealize.ShloMosaic.Lib.ValueIdx

noncomputable section

namespace Cert.Attn

open Idealize.ShloMosaic Idealize.ShloMosaic.ValueIdx

/-- The input with its two spatial axes flattened: entry `(b, ch, n)`. -/
abbrev A3 : Type := (⟨3, ![4, 576, 65536]⟩ : Shape).Idx → EReal
/-- The input as given: entry `(b, ch, i, j)`. -/
abbrev A4 : Type := (⟨4, ![4, 576, 256, 256]⟩ : Shape).Idx → EReal
/-- The temperatures, one per head. -/
abbrev T3 : Type := (⟨3, ![6, 1, 1]⟩ : Shape).Idx → EReal
/-- The softmax weights: entry `(b, h, c, d)`. -/
abbrev W4 : Type := (⟨4, ![4, 6, 32, 32]⟩ : Shape).Idx → EReal
/-- The result with its spatial axes flattened, and as returned. -/
abbrev O3 : Type := (⟨3, ![4, 192, 65536]⟩ : Shape).Idx → EReal
abbrev O4 : Type := (⟨4, ![4, 192, 256, 256]⟩ : Shape).Idx → EReal

/-- The floor under a norm: the single-precision number nearest 1e-12. -/
def eps : EReal := Ideal.ofBits .f32 0x2B8CBCCC#32
/-- Minus infinity, where a running maximum starts. -/
def ninf : EReal := Ideal.ofBits .f32 0xFF800000#32

/-- Query channel `c` of head `h`, and the key and value channels beside it. -/
def qch (h : Fin 6) (c : Fin 32) : Fin 576 := ⟨32 * h.val + c.val, by omega⟩
def kch (h : Fin 6) (d : Fin 32) : Fin 576 := ⟨192 + (32 * h.val + d.val), by omega⟩
def vch (h : Fin 6) (d : Fin 32) : Fin 576 := ⟨384 + (32 * h.val + d.val), by omega⟩

/-- The sum of squares of a channel's 65536 entries, and the floored norm. -/
def sumsq (x : A3) (b : Fin 4) (ch : Fin 576) : EReal := ∑ n : Fin 65536, x (ix3 b ch n) * x (ix3 b ch n)
def nrm (x : A3) (b : Fin 4) (ch : Fin 576) : EReal := max (Ideal.sqrt (sumsq x b ch)) eps

/-- The inner product of query row `c` and key row `d` of a head. -/
def dotqk (x : A3) (b : Fin 4) (h : Fin 6) (c d : Fin 32) : EReal :=
  ∑ n : Fin 65536, x (ix3 b (qch h c) n) * x (ix3 b (kch h d) n)

/-- The score: the inner product over the product of the two floored norms, times the temperature. -/
def score (x : A3) (tmp : T3) (b : Fin 4) (h : Fin 6) (c d : Fin 32) : EReal :=
  Ideal.div (dotqk x b h c d) (nrm x b (qch h c) * nrm x b (kch h d)) * tmp (ix3 h 0 0)

/-- The largest entry of a row (never below minus infinity). -/
def rowMax (s : Fin 32 → EReal) : EReal := max ninf (Finset.univ.fold max ninf s)
/-- The softmax of a row: exponentials of the entries less the row's maximum, over their sum. -/
def softmaxRow (s : Fin 32 → EReal) (d : Fin 32) : EReal :=
  Ideal.div (Ideal.exp (s d - rowMax s)) (∑ d' : Fin 32, Ideal.exp (s d' - rowMax s))

/-- The softmax weights of every head. -/
def attn (x : A3) (tmp : T3) : W4 :=
  fun j => softmaxRow (fun d => score x tmp (j 0) (j 1) (j 2) d) (j 3)

/-- The head and the row inside it of an output channel. -/
def headOf (ch : Fin 192) : Fin 6 := ⟨ch.val / 32, by omega⟩
def rowOf (ch : Fin 192) : Fin 32 := ⟨ch.val % 32, Nat.mod_lt _ (by decide)⟩

/-- Weights applied to the value rows: entry `(b, ch, n)` is the sum over `d` of weight `(b, h, c, d)` times value
    row `d` of head `h` at `n`, where `ch = 32 h + c`. -/
def applyTo (a : W4) (x : A3) : O3 :=
  fun j => ∑ d : Fin 32, a (ix4 (j 0) (headOf (j 1)) (rowOf (j 1)) d) * x (ix3 (j 0) (vch (headOf (j 1)) d) (j 2))

/-- Flattening the two spatial axes, position `(i, j)` going to `256 i + j`. -/
def hi (n : Fin 65536) : Fin 256 := ⟨n.val / 256, by omega⟩
def lo (n : Fin 65536) : Fin 256 := ⟨n.val % 256, Nat.mod_lt _ (by decide)⟩
def pos (i j : Fin 256) : Fin 65536 := ⟨256 * i.val + j.val, by omega⟩
def flat (x : A4) : A3 := fun j => x (ix4 (j 0) (j 1) (hi (j 2)) (lo (j 2)))
def unflat (y : O3) : O4 := fun j => y (ix3 (j 0) (j 1) (pos (j 2) (j 3)))

/-- The whole computation. -/
def G (x : A4) (tmp : T3) : O4 := unflat (applyTo (attn (flat x) tmp) (flat x))

end Cert.Attn

end
-- ==== Proof.Reshape.lean ====
/-
  The two reshapes of the host program read index by index: flattening the two spatial axes sends position
  `(i, j)` to `256 i + j`, and unflattening is its inverse.  Both keep the row-major order of the entries.
-/
import proofs.«142308_j30777735643434_1_alg».proof.Proof.Spec
import Idealize.ShloMosaic.Lib.Pipeline.Value

noncomputable section

namespace Cert.Attn

open Idealize.ShloMosaic Idealize.ShloMosaic.ValueIdx

/-- The input with its spatial axes flattened: entry `(b, ch, n)` is entry `(b, ch, n / 256, n % 256)`. -/
theorem shapeCast_flat (x : A4) (h : (⟨4, ![4, 576, 256, 256]⟩ : Shape).ShapeCasts ⟨3, ![4, 576, 65536]⟩) :
    shapeCast (⟨3, ![4, 576, 65536]⟩ : Shape) x h = flat x := by
  funext j
  obtain ⟨b, ch, n, rfl⟩ : ∃ (b : Fin 4) (ch : Fin 576) (n : Fin 65536), j = ix3 b ch n := ⟨j 0, j 1, j 2, eq_ix3 j⟩
  refine (shapeCast_apply x h (ix3 b ch n) (ix4 b ch (hi n) (lo n)) ?_).trans rfl
  rw [Shape.rowMajor_val_four, Shape.rowMajor_val_three]
  show ((b.val * 576 + ch.val) * 256 + n.val / 256) * 256 + n.val % 256 = (b.val * 576 + ch.val) * 65536 + n.val
  omega

/-- The result with its spatial axes restored: entry `(b, ch, i, j)` is entry `(b, ch, 256 i + j)`. -/
theorem shapeCast_unflat (y : O3) (h : (⟨3, ![4, 192, 65536]⟩ : Shape).ShapeCasts ⟨4, ![4, 192, 256, 256]⟩) :
    shapeCast (⟨4, ![4, 192, 256, 256]⟩ : Shape) y h = unflat y := by
  funext j
  obtain ⟨b, ch, p, q, rfl⟩ : ∃ (b : Fin 4) (ch : Fin 192) (p q : Fin 256), j = ix4 b ch p q :=
    ⟨j 0, j 1, j 2, j 3, eq_ix4 j⟩
  refine (shapeCast_apply y h (ix4 b ch p q) (ix3 b ch (pos p q)) ?_).trans rfl
  rw [Shape.rowMajor_val_three, Shape.rowMajor_val_four]
  show (b.val * 192 + ch.val) * 65536 + (256 * p.val + q.val) = ((b.val * 192 + ch.val) * 256 + p.val) * 256 + q.val
  omega

end Cert.Attn

end
-- ==== Proof.KI.Boundary.lean ====
/-
  The two reshapes on the host, read at the segment boundaries: the first flattens the two spatial axes of the input,
  the last unflattens them in the result.
-/
import proofs.«142308_j30777735643434_1_alg».proof.Proof.KI.Run
import proofs.«142308_j30777735643434_1_alg».proof.Proof.Reshape
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Attn

variable (m : (ℓ : Loc nD τ sig) → Buf (Elt Ideal) ℓ)

/-- The first reshape flattens the two spatial axes. -/
theorem W1_v0 (c : Dev nD) : W1 (F := Ideal) m c (Proc.devRef .tc main_v0) = flat (m ((c : Thread nD τ).loc main_arg0)) := by
  show StableHlo.after hostOps0 (fun b => m (c, b)) (Proc.devRef .tc main_v0) = _
  after_results
  exact shapeCast_flat _ _

/-- The last reshape unflattens them. -/
theorem W4_v3 (c : Dev nD) : W4 (F := Ideal) m c (Proc.devRef .tc main_v3) = unflat (W3 (F := Ideal) m c (Proc.devRef .tc main_v2)) := by
  show StableHlo.after hostOps2 (W3 (F := Ideal) m c) (Proc.devRef .tc main_v3) = _
  after_results
  exact shapeCast_unflat _ _

end Cert.KernelIdeal.Hand

end
-- ==== Proof.KI.AttnPieces.lean ====
/-
  What each branch of the first kernel leaves in its accumulators and in its output window, as terms of the blocks
  it loaded and of what it found in the accumulators: the body's stores, read back.
-/
import proofs.«142308_j30777735643434_1_alg».proof.Proof.KI.Attn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_zero : (![0, 0] : Fin 2 → Nat) = fun _ => 0 := funext fun a => by fin_cases a <;> rfl
theorem off3_zero : (![0, 0, 0] : Fin 3 → Nat) = fun _ => 0 := funext fun a => by fin_cases a <;> rfl
theorem off4_zero : (![0, 0, 0, 0] : Fin 4 → Nat) = fun _ => 0 := funext fun a => by fin_cases a <;> rfl

section
variable (c : Dev nD) (i : grid0.Coords) (arg3 : Memref sig .tc .vmem S1x32x32768 .f32) (harg3 : arg3.IsWhole) (arg4 : Memref sig .tc .vmem S1x32x32768 .f32) (harg4 : arg4.IsWhole) (arg5 : Memref sig .tc .vmem S1x1x1 .f32) (harg5 : arg5.IsWhole) (arg6 : Memref sig .tc .vmem S1x1x32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S32x1 .f32) (harg9 : arg9.IsWhole)

/-- A first-half point leaves in each accumulator its half's sums added to zero. -/
theorem soutA_0_eq (hc0 : cond0_0 i) (hc1 : ¬cond0_1 i) (x0 x1 : Vec F S1x32x32768 .f32) :
    soutA_0 c i arg3 harg3 arg4 harg4 arg5 harg5 arg6 harg6 arg7 harg7 arg8 harg8 arg9 harg9 hc0 hc1 x0 x1 = k0_pay1 (k0_pay10 x0 x1 (k0_pay3 (F := F))) := by
  unfold soutA_0
  rw [View.read_writes_eq_canon _ _ _ (scoverA_0 c i arg3 harg3 arg4 harg4 arg5 harg5 arg6 harg6 arg7 harg7 arg8 harg8 arg9 harg9 hc0 hc1 x0 x1)]
  unfold kernelRun0_A
  dsimp only
  try sl_unfold_words
  rw [View.canon_cons_unit_zero off2_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

theorem soutA_1_eq (hc0 : cond0_0 i) (hc1 : ¬cond0_1 i) (x0 x1 : Vec F S1x32x32768 .f32) :
    soutA_1 c i arg3 harg3 arg4 harg4 arg5 harg5 arg6 harg6 arg7 harg7 arg8 harg8 arg9 harg9 hc0 hc1 x0 x1 = k0_pay8 x0 (k0_pay4 (F := F)) := by
  unfold soutA_1
  rw [View.read_writes_eq_canon _ _ _ (scoverA_1 c i arg3 harg3 arg4 harg4 arg5 harg5 arg6 harg6 arg7 harg7 arg8 harg8 arg9 harg9 hc0 hc1 x0 x1)]
  unfold kernelRun0_A
  dsimp only
  try sl_unfold_words
  rw [View.canon_cons_unit_zero off2_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

theorem soutA_2_eq (hc0 : cond0_0 i) (hc1 : ¬cond0_1 i) (x0 x1 : Vec F S1x32x32768 .f32) :
    soutA_2 c i arg3 harg3 arg4 harg4 arg5 harg5 arg6 harg6 arg7 harg7 arg8 harg8 arg9 harg9 hc0 hc1 x0 x1 = k0_pay9 x1 (k0_pay5 (F := F)) := by
  unfold soutA_2
  rw [View.read_writes_eq_canon _ _ _ (scoverA_2 c i arg3 harg3 arg4 harg4 arg5 harg5 arg6 harg6 arg7 harg7 arg8 harg8 arg9 harg9 hc0 hc1 x0 x1)]
  unfold kernelRun0_A
  dsimp only
  try sl_unfold_words
  rw [View.canon_cons_unit_zero off2_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

/-- A second-half point adds its half's sums to what it found, and stores the weights computed from the totals. -/
theorem soutB_0_eq (hc0 : ¬cond0_0 i) (hc1 : cond0_1 i) (x0 x1 : Vec F S1x32x32768 .f32) (x2 : Vec F S1x1x1 .f32) (xs0 : Vec F S32x32 .f32) (xs1 xs2 : Vec F S32x1 .f32) :
    soutB_0 c i arg3 harg3 arg4 harg4 arg5 harg5 arg6 harg6 arg7 harg7 arg8 harg8 arg9 harg9 hc0 hc1 x0 x1 x2 xs0 xs1 xs2 = k0_pay1 (k0_pay10 x0 x1 xs0) := by
  unfold soutB_0
  rw [View.read_writes_eq_canon _ _ _ (scoverB_0 c i arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_cons_unit_zero off2_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

theorem soutB_1_eq (hc0 : ¬cond0_0 i) (hc1 : cond0_1 i) (x0 x1 : Vec F S1x32x32768 .f32) (x2 : Vec F S1x1x1 .f32) (xs0 : Vec F S32x32 .f32) (xs1 xs2 : Vec F S32x1 .f32) :
    soutB_1 c i arg3 harg3 arg4 harg4 arg5 harg5 arg6 harg6 arg7 harg7 arg8 harg8 arg9 harg9 hc0 hc1 x0 x1 x2 xs0 xs1 xs2 = k0_pay8 x0 xs1 := by
  unfold soutB_1
  rw [View.read_writes_eq_canon _ _ _ (scoverB_1 c i arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_cons_unit_zero off2_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

theorem soutB_2_eq (hc0 : ¬cond0_0 i) (hc1 : cond0_1 i) (x0 x1 : Vec F S1x32x32768 .f32) (x2 : Vec F S1x1x1 .f32) (xs0 : Vec F S32x32 .f32) (xs1 xs2 : Vec F S32x1 .f32) :
    soutB_2 c i arg3 harg3 arg4 harg4 arg5 harg5 arg6 harg6 arg7 harg7 arg8 harg8 arg9 harg9 hc0 hc1 x0 x1 x2 xs0 xs1 xs2 = k0_pay9 x1 xs2 := by
  unfold soutB_2
  rw [View.read_writes_eq_canon _ _ _ (scoverB_2 c i arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_cons_unit_zero off2_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

theorem outB_3_eq (hc0 : ¬cond0_0 i) (hc1 : cond0_1 i) (x0 x1 : Vec F S1x32x32768 .f32) (x2 : Vec F S1x1x1 .f32) (xs0 : Vec F S32x32 .f32) (xs1 xs2 : Vec F S32x1 .f32) :
    outB_3 c i arg3 harg3 arg4 harg4 arg5 harg5 arg6 harg6 arg7 harg7 arg8 harg8 arg9 harg9 hc0 hc1 x0 x1 x2 xs0 xs1 xs2 = k0_pay2 (k0_pay8 x0 xs1) (k0_pay9 x1 xs2) x2 (k0_pay1 (k0_pay10 x0 x1 xs0)) := by
  unfold outB_3
  rw [View.read_writes_eq_canon _ _ _ (coverB_3 c i arg3 harg3 arg4 harg4 arg5 harg5 arg6 harg6 arg7 harg7 arg8 harg8 arg9 harg9 hc0 hc1 x0 x1 x2 xs0 xs1 xs2)]
  unfold kernelRun0_B
  dsimp only
  try sl_unfold_words
  rw [View.canon_cons_unit_zero off4_zero]
  simp only [View.readAt_eq_ld, harg3.read_unread, harg4.read_unread, harg5.read_unread, harg7.read_unread, harg8.read_unread, harg9.read_unread,
    View.ld_unit_zero (S := S1x32x32768) off3_zero, View.ld_unit_zero (S := S32x32) off2_zero, View.ld_unit_zero (S := S32x1) off2_zero, View.ld_unit_zero (S := S1x1x1) off3_zero,
    View.readCov_unit_zero (S := S32x32) _ off2_zero, View.readCov_unit_zero (S := S32x1) _ off2_zero]

end

end Cert.KernelIdeal.Hand

end
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.KI.AttnPay.lean ====
/-
  The first kernel's arithmetic, entry by entry on the extended reals.

  The kernel carries three accumulators across the two halves of the positions: the 32×32 matrix of inner products of
  the query rows with the key rows, and the sums of squares of the query rows and of the key rows.  On the first
  half they are reset to zero; on each half the products and squares of that half's 32768 positions are added in; on
  the last half the inner products are divided by the product of the two floored norms, scaled by the temperature,
  and each row is turned into softmax weights.  Changes of float format are the identity on the extended reals, a
  matrix product into the zero accumulator is the plain sum, and a lane reduction is the exact sum or maximum of
  its row.
-/
import proofs.«142308_j30777735643434_1_alg».proof.Proof.Gen.KernelIdeal.Skeleton
import proofs.«142308_j30777735643434_1_alg».proof.Proof.Spec
import proofs.«142308_j30777735643434_1_alg».proof.Proof.LibMatmulCols
import proofs.«142308_j30777735643434_1_alg».proof.Proof.LibRowSum
import proofs.«142308_j30777735643434_1_alg».proof.Proof.LibRowMax
import proofs.«142308_j30777735643434_1_alg».proof.Proof.LibColumnCast
import proofs.«142308_j30777735643434_1_alg».proof.Proof.LibColBroadcast
import Idealize.ShloMosaic.Lib.Pipeline.Value
import Idealize.ShloMosaic.Lib.ValueLayout

noncomputable section

namespace Cert.KernelIdeal.Hand

open Cert.KernelIdeal Cert.KernelIdeal.Gen Idealize.ShloMosaic
open Idealize.ShloMosaic.ValueIdx
open Cert.Attn

/-! ## Layout facts -/

/-- An `[a, b]` array viewed as `[1, 1, a, b]` reads, at `(u, u', i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_two, Shape.rowMajor_val_four]
    show i.val * b + j.val = ((u.val * 1 + u'.val) * a + i.val) * b + j.val
    simp only [hu, hu', Nat.zero_mul, Nat.zero_add])

/-- A block of value rows viewed as a 32×32768 matrix, at `(p, n)`. -/
theorem pay6_apply (x : Vec Ideal S1x32x32768 .f32) (p : Fin 32) (n : Fin 32768) :
    k0_pay6 (F := Ideal) x (ix2 p n) = x (ix3 (0 : Fin 1) p n) := by
  unfold k0_pay6
  exact shapeCast_1ab_ab_apply x _ p n

theorem pay7_apply (x : Vec Ideal S1x32x32768 .f32) (p : Fin 32) (n : Fin 32768) :
    k0_pay7 (F := Ideal) x (ix2 p n) = x (ix3 (0 : Fin 1) p n) := by
  unfold k0_pay7
  exact shapeCast_1ab_ab_apply x _ p n

/-! ## The accumulators: carried over, reset, added into -/

/-- The inner products are stored back as they are. -/
theorem pay1_eq (a : Vec Ideal S32x32 .f32) : k0_pay1 (F := Ideal) a = a := by
  unfold k0_pay1
  exact shapeCast_self a _

/-- On the first half the three accumulators are reset to zero. -/
theorem pay3_apply (p q : Fin 32) : k0_pay3 (F := Ideal) (ix2 p q) = 0 := by
  unfold k0_pay3
  refine (congrFun (shapeCast_self _ _) (ix2 p q)).trans ?_
  exact Ideal.ofBits_zero_f32

theorem pay4_apply (p : Fin 32) : k0_pay4 (F := Ideal) (ix2 p (0 : Fin 1)) = 0 := by
  unfold k0_pay4
  refine (congrFun (shapeCast_self _ _) (ix2 p (0 : Fin 1))).trans ?_
  exact Ideal.ofBits_zero_f32

theorem pay5_apply (p : Fin 32) : k0_pay5 (F := Ideal) (ix2 p (0 : Fin 1)) = 0 := by
  unfold k0_pay5
  refine (congrFun (shapeCast_self _ _) (ix2 p (0 : Fin 1))).trans ?_
  exact Ideal.ofBits_zero_f32

/-- The sum of squares of query row `p` grows by the squares of this half's positions. -/
theorem pay8_apply (x0 : Vec Ideal S1x32x32768 .f32) (v : Vec Ideal S32x1 .f32) (p : Fin 32) :
    k0_pay8 (F := Ideal) x0 v (ix2 p (0 : Fin 1))
      = v (ix2 p (0 : Fin 1)) + ∑ n : Fin 32768, x0 (ix3 (0 : Fin 1) p n) * x0 (ix3 (0 : Fin 1) p n) := by
  unfold k0_pay8
  refine (congrFun (shapeCast_self _ _) (ix2 p (0 : Fin 1))).trans ?_
  refine congrArg (v (ix2 p (0 : Fin 1)) + ·) ?_
  refine (Cert.LibColumnCast.shapeCast_a_a1_apply _ _ p (0 : Fin 1)).trans ?_
  refine (Cert.LibRowSum.laneSum_row _ _ _ _ p).trans ?_
  exact Finset.sum_congr rfl fun n _ => congrArg₂ (· * ·) (pay6_apply x0 p n) (pay6_apply x0 p n)

/-- The sum of squares of key row `p` grows by the squares of this half's positions. -/
theorem pay9_apply (x1 : Vec Ideal S1x32x32768 .f32) (w : Vec Ideal S32x1 .f32) (p : Fin 32) :
    k0_pay9 (F := Ideal) x1 w (ix2 p (0 : Fin 1))
      = w (ix2 p (0 : Fin 1)) + ∑ n : Fin 32768, x1 (ix3 (0 : Fin 1) p n) * x1 (ix3 (0 : Fin 1) p n) := by
  unfold k0_pay9
  refine (congrFun (shapeCast_self _ _) (ix2 p (0 : Fin 1))).trans ?_
  refine congrArg (w (ix2 p (0 : Fin 1)) + ·) ?_
  refine (Cert.LibColumnCast.shapeCast_a_a1_apply _ _ p (0 : Fin 1)).trans ?_
  refine (Cert.LibRowSum.laneSum_row _ _ _ _ p).trans ?_
  exact Finset.sum_congr rfl fun n _ => congrArg₂ (· * ·) (pay7_apply x1 p n) (pay7_apply x1 p n)

/-- The inner product of query row `p` and key row `q` grows by this half's products. -/
theorem pay10_apply (x0 x1 : Vec Ideal S1x32x32768 .f32) (a : Vec Ideal S32x32 .f32) (p q : Fin 32) :
    k0_pay10 (F := Ideal) x0 x1 a (ix2 p q)
      = a (ix2 p q) + ∑ n : Fin 32768, x0 (ix3 (0 : Fin 1) p n) * x1 (ix3 (0 : Fin 1) q n) := by
  unfold k0_pay10
  refine congrArg (a (ix2 p q) + ·) ?_
  refine (Cert.Lib.MatmulCols.matmul_zero_plain dot_S32x32768_S32768x32_S32x32_1_0_0_1_n_n_wf none _ _ p q).trans ?_
  refine Finset.sum_congr rfl fun n _ => congrArg₂ (· * ·) (pay6_apply x0 p n) ?_
  refine (transpose_ix2_apply _ _ n q).trans ?_
  exact pay7_apply x1 q n

/-! ## The last half: scores and softmax weights -/

/-- The 32×32 block of scores as the kernel computes it from the accumulators and the temperature. -/
def scoreBlk (v w : Vec Ideal S32x1 .f32) (tm : Vec Ideal S1x1x1 .f32) (a : Vec Ideal S32x32 .f32) : FVec Ideal S32x32 .f32 :=
  mulf
    (divf a (mulf
      (broadcastTo S32x32 (maximumf (sqrt v) (broadcast S32x1 (Scalar.ofBits .f32 0x2B8CBCCC#32))) broadcasts_S32x1_S32x32)
      (broadcastTo S32x32 (transpose S1x32 [1, 0] (maximumf (sqrt w) (broadcast S32x1 (Scalar.ofBits .f32 0x2B8CBCCC#32)))
        transposes_S32x1_p1_0_S1x32) broadcasts_S1x32_S32x32)))
    (broadcast S32x32 (extractAt ![0, 0, 0] tm inpos_S1x1x1_p0_0_0))

/-- The rows' softmax of a 32×32 block as the kernel computes it. -/
def softmaxBlk (s : FVec Ideal S32x32 .f32) : FVec Ideal S32x32 .f32 :=
  divf
    (exp (subf s (broadcastTo S32x32 (shapeCast S32x1
      (maximumf (broadcast S32 (Scalar.ofBits .f32 0xFF800000#32))
        (multiReduction .maximumf [1] S32 s 0xFF800000#32 reduces_S32x32_S32 (.inl rfl) rfl)) shapeCasts_S32_S32x1) broadcasts_S32x1_S32x32)))
    (broadcastTo S32x32 (shapeCast S32x1
      (multiReduction .add [1] S32
        (exp (subf s (broadcastTo S32x32 (shapeCast S32x1
          (maximumf (broadcast S32 (Scalar.ofBits .f32 0xFF800000#32))
            (multiReduction .maximumf [1] S32 s 0xFF800000#32 reduces_S32x32_S32 (.inl rfl) rfl)) shapeCasts_S32_S32x1) broadcasts_S32x1_S32x32)))
        0x00000000#32 reduces_S32x32_S32 (.inl rfl) rfl) shapeCasts_S32_S32x1) broadcasts_S32x1_S32x32)

/-- The stored weights are the softmax of the scores, laid out as a `[1, 1, 32, 32]` block. -/
theorem pay2_eq (v w : Vec Ideal S32x1 .f32) (tm : Vec Ideal S1x1x1 .f32) (a : Vec Ideal S32x32 .f32) :
    k0_pay2 (F := Ideal) v w tm a = shapeCast S1x1x32x32 (softmaxBlk (scoreBlk v w tm a)) shapeCasts_S32x32_S1x1x32x32 := rfl

/-- Score `(p, d)`: the inner product over the product of the two floored norms, times the temperature. -/
theorem scoreBlk_apply (v w : Vec Ideal S32x1 .f32) (tm : Vec Ideal S1x1x1 .f32) (a : Vec Ideal S32x32 .f32) (p d : Fin 32) :
    scoreBlk v w tm a (ix2 p d)
      = Ideal.div (a (ix2 p d)) (max (Ideal.sqrt (v (ix2 p (0 : Fin 1)))) eps * max (Ideal.sqrt (w (ix2 d (0 : Fin 1)))) eps)
          * tm (ix3 (0 : Fin 1) (0 : Fin 1) (0 : Fin 1)) := by
  unfold scoreBlk
  show Ideal.div (a (ix2 p d)) (broadcastTo S32x32 _ broadcasts_S32x1_S32x32 (ix2 p d) * broadcastTo S32x32 _ broadcasts_S1x32_S32x32 (ix2 p d))
      * extractAt ![0, 0, 0] tm inpos_S1x1x1_p0_0_0 = _
  have e1 := Cert.LibColBroadcast.broadcastTo_a1_ab_apply (maximumf (sqrt v) (broadcast S32x1 (Scalar.ofBits (F := Ideal) .f32 0x2B8CBCCC#32))) broadcasts_S32x1_S32x32 p d
  have e2 := (broadcastTo_1b_ab_apply (transpose S1x32 [1, 0] (maximumf (sqrt w) (broadcast S32x1 (Scalar.ofBits (F := Ideal) .f32 0x2B8CBCCC#32))) transposes_S32x1_p1_0_S1x32) broadcasts_S1x32_S32x32 p d).trans
    (transpose_ix2_apply (maximumf (sqrt w) (broadcast S32x1 (Scalar.ofBits (F := Ideal) .f32 0x2B8CBCCC#32))) transposes_S32x1_p1_0_S1x32 (0 : Fin 1) d)
  have e3 : extractAt ![0, 0, 0] tm inpos_S1x1x1_p0_0_0 = tm (ix3 (0 : Fin 1) (0 : Fin 1) (0 : Fin 1)) :=
    congrArg tm (funext fun ax => match ax with | ⟨0, _⟩ => rfl | ⟨1, _⟩ => rfl | ⟨2, _⟩ => rfl)
  rw [e1, e2, e3]
  rfl

/-- Row `p` of the softmax of a block is the softmax of the block's row `p`. -/
theorem softmaxBlk_apply (s : FVec Ideal S32x32 .f32) (p q : Fin 32) :
    softmaxBlk s (ix2 p q) = softmaxRow (fun d => s (ix2 p d)) q := by
  have hmx : ∀ k : Fin 32, broadcastTo S32x32 (shapeCast S32x1
      (maximumf (broadcast S32 (Scalar.ofBits (F := Ideal) .f32 0xFF800000#32))
        (multiReduction .maximumf [1] S32 s 0xFF800000#32 reduces_S32x32_S32 (.inl rfl) rfl)) shapeCasts_S32_S32x1) broadcasts_S32x1_S32x32 (ix2 p k)
      = rowMax (fun d => s (ix2 p d)) := fun k =>
    (Cert.LibColBroadcast.broadcastTo_a1_ab_apply _ _ p k).trans
      ((Cert.LibColumnCast.shapeCast_a_a1_apply _ _ p (0 : Fin 1)).trans
        (congrArg (max ninf ·) (Cert.LibRowMax.laneMax_row s reduces_S32x32_S32 (.inl rfl) rfl p)))
  unfold softmaxBlk softmaxRow
  show Ideal.div (Ideal.exp (s (ix2 p q) - _)) _ = _
  rw [hmx q]
  refine congrArg (Ideal.div (Ideal.exp (s (ix2 p q) - rowMax fun d => s (ix2 p d)))) ?_
  refine (Cert.LibColBroadcast.broadcastTo_a1_ab_apply _ _ p q).trans ?_
  refine (Cert.LibColumnCast.shapeCast_a_a1_apply _ _ p (0 : Fin 1)).trans ?_
  refine (Cert.LibRowSum.laneSum_row _ _ _ _ p).trans ?_
  refine Finset.sum_congr rfl fun k _ => ?_
  show Ideal.exp (s (ix2 p k) - _) = _
  rw [hmx k]

/-- Weight `(p, q)` as stored: the softmax over `d` of the scores of row `p`, at `q`. -/
theorem pay2_apply (v w : Vec Ideal S32x1 .f32) (tm : Vec Ideal S1x1x1 .f32) (a : Vec Ideal S32x32 .f32) (p q : Fin 32) :
    k0_pay2 (F := Ideal) v w tm a (ix4 (0 : Fin 1) (0 : Fin 1) p q)
      = softmaxRow (fun d => Ideal.div (a (ix2 p d))
          (max (Ideal.sqrt (v (ix2 p (0 : Fin 1)))) eps * max (Ideal.sqrt (w (ix2 d (0 : Fin 1)))) eps)
            * tm (ix3 (0 : Fin 1) (0 : Fin 1) (0 : Fin 1))) q := by
  rw [pay2_eq]
  refine (shapeCast_ab_11ab_apply _ _ (0 : Fin 1) (0 : Fin 1) p q).trans ?_
  refine (softmaxBlk_apply _ p q).trans ?_
  exact congrArg (fun f => softmaxRow f q) (funext fun d => scoreBlk_apply v w tm a p d)

end Cert.KernelIdeal.Hand

end
-- ==== Proof.AttnArith.lean ====
/-
  Arithmetic the block-by-block computation rests on; no program is mentioned.

  * The 65536 positions are visited as two halves of 32768: a sum over all positions is the sum over the first half
    (started at zero) plus the sum over the second half.  Addition of extended reals is commutative and associative,
    so nothing is asked of the summands.
  * The 48 steps of a `4 × 6 × 2` schedule: step `t` has coordinates `(t / 12, (t / 2) % 6, t % 2)`; an odd step and
    the step before it share the first two coordinates, and every pair `(b, h)` is the first two coordinates of exactly
    one even step `12 b + 2 h` and one odd step `12 b + 2 h + 1`.
  * The softmax weights at an index, with the score written out: the inner product over the product of the two
    floored norms, times the temperature.
-/
import proofs.«142308_j30777735643434_1_alg».proof.Proof.Spec

noncomputable section

open scoped BigOperators

namespace Cert.Attn

open Idealize.ShloMosaic Idealize.ShloMosaic.ValueIdx

/-! ## The two halves of the positions -/

/-- A sum over the 65536 positions is the sum over the first 32768, started at zero, plus the sum over the last 32768. -/
theorem sum_halves (f : Fin 65536 → EReal) :
    (0 + ∑ n : Fin 32768, f ⟨n.val, by omega⟩) + ∑ n : Fin 32768, f ⟨32768 + n.val, by omega⟩ = ∑ n : Fin 65536, f n := by
  rw [zero_add]
  exact (Fin.sum_univ_add (a := 32768) (b := 32768) f).symm

/-! ## The steps of the schedule -/

/-- A step's coordinates are in range. -/
theorem point_coords_lt (t : ℕ) (ht : t < 48) : t / 12 < 4 ∧ (t / 2) % 6 < 6 ∧ t % 2 < 2 := by omega
/-- A step is recovered from its coordinates. -/
theorem point_eq_coords (t : ℕ) : t = 12 * (t / 12) + 2 * ((t / 2) % 6) + t % 2 := by omega

/-- An odd step and the step before it share the first coordinate … -/
theorem point_odd_pred_b (t : ℕ) (ht : t % 2 = 1) : (t - 1) / 12 = t / 12 := by omega
/-- … and the second … -/
theorem point_odd_pred_h (t : ℕ) (ht : t % 2 = 1) : ((t - 1) / 2) % 6 = (t / 2) % 6 := by omega
/-- … and the step before is even. -/
theorem point_odd_pred_s (t : ℕ) (ht : t % 2 = 1) : (t - 1) % 2 = 0 := by omega
/-- An odd step is at least 1, and the step before it is a step. -/
theorem point_odd_pos (t : ℕ) (ht : t % 2 = 1) : 1 ≤ t := by omega
theorem point_odd_pred_lt (t : ℕ) (h48 : t < 48) (ht : t % 2 = 1) : t - 1 < 48 ∧ t - 1 + 1 = t := by omega
/-- An even step is followed by an odd step with the same first two coordinates. -/
theorem point_even_succ (t : ℕ) (h48 : t < 48) (ht : t % 2 = 0) :
    t + 1 < 48 ∧ (t + 1) / 12 = t / 12 ∧ ((t + 1) / 2) % 6 = (t / 2) % 6 ∧ (t + 1) % 2 = 1 := by omega

/-- The odd step of `(b, h)` is a step … -/
theorem point_odd_lt (b : Fin 4) (h : Fin 6) : 12 * b.val + 2 * h.val + 1 < 48 := by omega
/-- … with first coordinate `b` … -/
theorem point_odd_b (b : Fin 4) (h : Fin 6) : (12 * b.val + 2 * h.val + 1) / 12 = b.val := by omega
/-- … second coordinate `h` … -/
theorem point_odd_h (b : Fin 4) (h : Fin 6) : ((12 * b.val + 2 * h.val + 1) / 2) % 6 = h.val := by omega
/-- … and last coordinate 1. -/
theorem point_odd_s (b : Fin 4) (h : Fin 6) : (12 * b.val + 2 * h.val + 1) % 2 = 1 := by omega

/-- The even step of `(b, h)`, likewise. -/
theorem point_even_lt (b : Fin 4) (h : Fin 6) : 12 * b.val + 2 * h.val < 48 := by omega
theorem point_even_b (b : Fin 4) (h : Fin 6) : (12 * b.val + 2 * h.val) / 12 = b.val := by omega
theorem point_even_h (b : Fin 4) (h : Fin 6) : ((12 * b.val + 2 * h.val) / 2) % 6 = h.val := by omega
theorem point_even_s (b : Fin 4) (h : Fin 6) : (12 * b.val + 2 * h.val) % 2 = 0 := by omega

/-- The steps with first two coordinates `(b, h)` are exactly its even and its odd step. -/
theorem point_of_coords (t : ℕ) (b : Fin 4) (h : Fin 6) (hb : t / 12 = b.val) (hh : (t / 2) % 6 = h.val) :
    t = 12 * b.val + 2 * h.val + t % 2 := by omega

/-- The same facts for a step given as an element of `Fin 48`. -/
theorem point_odd_fin (b : Fin 4) (h : Fin 6) :
    ∃ t : Fin 48, t.val = 12 * b.val + 2 * h.val + 1 ∧ t.val / 12 = b.val ∧ (t.val / 2) % 6 = h.val ∧ t.val % 2 = 1 :=
  ⟨⟨12 * b.val + 2 * h.val + 1, point_odd_lt b h⟩, rfl, point_odd_b b h, point_odd_h b h, point_odd_s b h⟩

/-! ## The softmax weights with the score written out -/

/-- The weights at `(b, h, p, q)`: the softmax over `d` of the inner product of query row `p` and key row `d` over the
    product of their floored norms, times the head's temperature, at `q`. -/
theorem attn_apply (x : A3) (tmp : T3) (b : Fin 4) (h : Fin 6) (p q : Fin 32) :
    attn x tmp (ix4 b h p q)
      = softmaxRow (fun d => Ideal.div (dotqk x b h p d)
          (max (Ideal.sqrt (sumsq x b (qch h p))) eps * max (Ideal.sqrt (sumsq x b (kch h d))) eps)
          * tmp (ix3 h 0 0)) q := rfl

end Cert.Attn

end
-- ==== Proof.KI.AttnBlocks.lean ====
/-
  The first kernel's blocks, read off the arrays.

  Step `t` of the `4 × 6 × 2` schedule has coordinates `(b, h, s) = (t / 12, (t / 2) % 6, t % 2)`.  Its query block
  is rows `32 h … 32 h + 31` of batch entry `b` of the flattened input at the positions of half `s`; its key block
  the rows 192 further down (six blocks of 32) at the same positions; its temperature block the one temperature
  of head `h`; its output block the 32×32 weights of head `h` of batch entry `b`, whichever half.  Every entry of the
  weights lies in the output block of the second-half step of its `(b, h)`, the only kind of step that writes back.
-/
import proofs.«142308_j30777735643434_1_alg».proof.Proof.KI.Attn
import proofs.«142308_j30777735643434_1_alg».proof.Proof.Spec
import proofs.«142308_j30777735643434_1_alg».proof.Proof.AttnArith
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

/-! ## The four index maps over the grid -/

/-- Block indices at step `t`: queries `(t / 12, (t / 2) % 6, t % 2)`, keys six blocks further down the channels,
    the temperature of head `(t / 2) % 6`, the weights of `(t / 12, (t / 2) % 6)`. -/
theorem idx_facts0 : ∀ t : Fin cfg0.N,
    win0_0.index t (0 : Fin 3) = t.val / 12 ∧ win0_0.index t (1 : Fin 3) = (t.val / 2) % 6
    ∧ win0_0.index t (2 : Fin 3) = t.val % 2
    ∧ win0_1.index t (0 : Fin 3) = t.val / 12 ∧ win0_1.index t (1 : Fin 3) = 6 + (t.val / 2) % 6
    ∧ win0_1.index t (2 : Fin 3) = t.val % 2
    ∧ win0_2.index t (0 : Fin 3) = (t.val / 2) % 6 ∧ win0_2.index t (1 : Fin 3) = 0 ∧ win0_2.index t (2 : Fin 3) = 0
    ∧ win0_3.index t (0 : Fin 4) = t.val / 12 ∧ win0_3.index t (1 : Fin 4) = (t.val / 2) % 6
    ∧ win0_3.index t (2 : Fin 4) = 0 ∧ win0_3.index t (3 : Fin 4) = 0 :=
  (by decide +kernel : ∀ t : Fin grid0.N, _)

/-! ## The blocks read at an index -/

variable (V : (c : Dev nD) → (b : Ref sig .tc) → Buf (Elt Ideal) ((c : Thread nD τ).loc b))

/-- The query block at a first-half step: rows `32 h + p` of batch entry `b` at the first 32768 positions. -/
theorem q_block_even (c : Dev nD) (t : Fin cfg0.N) (b : Fin 4) (h : Fin 6) (hb : t.val / 12 = b.val)
    (hh : (t.val / 2) % 6 = h.val) (hs : t.val % 2 = 0) (p : Fin 32) (n : Fin 32768) :
    (iblk0 V c 0 t : Vec Ideal S1x32x32768 .f32) (ix3 (0 : Fin 1) p n)
      = V c main_v0 (ix3 b (qch h p) (⟨n.val, by omega⟩ : Fin 65536)) := by
  obtain ⟨e00, e01, e02, -⟩ := idx_facts0 t
  show V c main_v0 (((cfg0.win 0).blk t).view.emb (ix3 (0 : Fin 1) p n)) = V c main_v0 _
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 32 + 1 * p.val = 32 * h.val + p.val; omega
  | ⟨2, _⟩ => show win0_0.index t (2 : Fin 3) * 32768 + 1 * n.val = n.val; omega

/-- The query block at a second-half step: the same rows at the last 32768 positions. -/
theorem q_block_odd (c : Dev nD) (t : Fin cfg0.N) (b : Fin 4) (h : Fin 6) (hb : t.val / 12 = b.val)
    (hh : (t.val / 2) % 6 = h.val) (hs : t.val % 2 = 1) (p : Fin 32) (n : Fin 32768) :
    (iblk0 V c 0 t : Vec Ideal S1x32x32768 .f32) (ix3 (0 : Fin 1) p n)
      = V c main_v0 (ix3 b (qch h p) (⟨32768 + n.val, by omega⟩ : Fin 65536)) := by
  obtain ⟨e00, e01, e02, -⟩ := idx_facts0 t
  show V c main_v0 (((cfg0.win 0).blk t).view.emb (ix3 (0 : Fin 1) p n)) = V c main_v0 _
  refine congrArg (V c main_v0) (funext fun a => Fin.ext ?_)
  match a with
  | ⟨0, _⟩ => show win0_0.index t (0 : Fin 3) * 1 + 1 * 0 = b.val; omega
  | ⟨1, _⟩ => show win0_0.index t (1 : Fin 3) * 32 + 1 * p.val = 32 * h.val + p.val; omega
  | ⟨2, _⟩ => show win0_0.index t (2 : Fin 3) * 32768 + 1 * n.val = 32768 + n.val; omega

/-- The key block at a first-half step: rows `192 + 32 h + p` of batch entry `b` at the first 32768 positions. -/
theorem k_block_even (c : Dev nD) (t : Fin cfg0.N) (b : Fin 4) (h : Fin 6) (hb : t.val / 12 = b.val)
    (hh : (t.val / 2) % 6 = h.val) (hs : t.val % 2 = 0) (p : Fin 32) (n : Fin 32768) :
    (iblk0 V c 1 t : Vec Ideal S1x32x32768 .f32) (ix3 (0 : Fin 1) p n)
      = V c main_v0 (ix3 b (kch h p) (⟨n.val, by omega⟩ : Fin 65536)) := by
  obtain ⟨-, -, -, e10, e11, e12, -⟩ := idx_facts0 t
  show V c main_v0 (((cfg0.win 1).blk t).view.emb (ix3 (0 : Fin 1) p n)) = V c main_v0 _
  refine congrArg (V c main_v0) (funext fun a => Fin.ext ?_)
  match a with
  | ⟨0, _⟩ => show win0_1.index t (0 : Fin 3) * 1 + 1 * 0 = b.val; omega
  | ⟨1, _⟩ => show win0_1.index t (1 : Fin 3) * 32 + 1 * p.val = 192 + (32 * h.val + p.val); omega
  | ⟨2, _⟩ => show win0_1.index t (2 : Fin 3) * 32768 + 1 * n.val = n.val; omega

/-- The key block at a second-half step: the same rows at the last 32768 positions. -/
theorem k_block_odd (c : Dev nD) (t : Fin cfg0.N) (b : Fin 4) (h : Fin 6) (hb : t.val / 12 = b.val)
    (hh : (t.val / 2) % 6 = h.val) (hs : t.val % 2 = 1) (p : Fin 32) (n : Fin 32768) :
    (iblk0 V c 1 t : Vec Ideal S1x32x32768 .f32) (ix3 (0 : Fin 1) p n)
      = V c main_v0 (ix3 b (kch h p) (⟨32768 + n.val, by omega⟩ : Fin 65536)) := by
  obtain ⟨-, -, -, e10, e11, e12, -⟩ := idx_facts0 t
  show V c main_v0 (((cfg0.win 1).blk t).view.emb (ix3 (0 : Fin 1) p n)) = V c main_v0 _
  refine congrArg (V c main_v0) (funext fun a => Fin.ext ?_)
  match a with
  | ⟨0, _⟩ => show win0_1.index t (0 : Fin 3) * 1 + 1 * 0 = b.val; omega
  | ⟨1, _⟩ => show win0_1.index t (1 : Fin 3) * 32 + 1 * p.val = 192 + (32 * h.val + p.val); omega
  | ⟨2, _⟩ => show win0_1.index t (2 : Fin 3) * 32768 + 1 * n.val = 32768 + n.val; omega

/-- The temperature block: the temperature of head `h`. -/
theorem t_block (c : Dev nD) (t : Fin cfg0.N) (h : Fin 6) (hh : (t.val / 2) % 6 = h.val) :
    (iblk0 V c 2 t : Vec Ideal S1x1x1 .f32) (ix3 (0 : Fin 1) (0 : Fin 1) (0 : Fin 1))
      = V c main_arg1 (ix3 h (0 : Fin 1) (0 : Fin 1)) := by
  obtain ⟨-, -, -, -, -, -, e20, e21, e22, -⟩ := idx_facts0 t
  show V c main_arg1 (((cfg0.win 2).blk t).view.emb (ix3 (0 : Fin 1) (0 : Fin 1) (0 : Fin 1))) = V c main_arg1 _
  refine congrArg (V c main_arg1) (funext fun a => Fin.ext ?_)
  match a with
  | ⟨0, _⟩ => show win0_2.index t (0 : Fin 3) * 1 + 1 * 0 = h.val; omega
  | ⟨1, _⟩ => show win0_2.index t (1 : Fin 3) * 1 + 1 * 0 = 0; omega
  | ⟨2, _⟩ => show win0_2.index t (2 : Fin 3) * 1 + 1 * 0 = 0; omega

/-- Entry `(p, q)` of the output block sits at `(b, h, p, q)` of the weights. -/
theorem o_block (t : Fin cfg0.N) (b : Fin 4) (h : Fin 6) (hb : t.val / 12 = b.val) (hh : (t.val / 2) % 6 = h.val)
    (p q : Fin 32) :
    (((cfg0.win 3).blk t).view.emb (ix4 (0 : Fin 1) (0 : Fin 1) p q) : S4x6x32x32.Idx) = ix4 b h p q := by
  obtain ⟨-, -, -, -, -, -, -, -, -, e30, e31, e32, e33⟩ := idx_facts0 t
  refine funext fun a => Fin.ext ?_
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 32 + 1 * p.val = p.val; omega
  | ⟨3, _⟩ => show win0_3.index t (3 : Fin 4) * 32 + 1 * q.val = q.val; omega

/-! ## The output blocks cover the weights -/

/-- An index of the weights is in step `t`'s output block iff each coordinate is in the block's range on its axis. -/
theorem mem_blk0 (t : Fin cfg0.N) (i : S4x6x32x32.Idx) :
    i ∈ ((cfg0.win 3).blk t).view.set ↔ ∀ a : Fin 4, win0_3.index t a * S1x1x32x32.size a ≤ (i a).val ∧ (i a).val < win0_3.index t a * S1x1x32x32.size a + S1x1x32x32.size a := by
  show i ∈ ((View.whole main_v1).slice (win0_3.rect t)).set ↔ _
  rw [View.set_slice_whole, Rect.mem_set_unit]
  exact Iff.rfl

/-- Every entry of the weights lies in the output block of a step that writes back: entry `(b, h, p, q)` in the
    block of the second-half step `12 b + 2 h + 1`. -/
theorem cover0 (i : S4x6x32x32.Idx) :
    ∃ t : Fin cfg0.N, (cfg0.win 3).flush t = true ∧ i ∈ ((cfg0.win 3).blk t).view.set := by
  have hi0 : (i 0).val < 4 := (i 0).isLt
  have hi1 : (i 1).val < 6 := (i 1).isLt
  have hi2 : (i 2).val < 32 := (i 2).isLt
  have hi3 : (i 3).val < 32 := (i 3).isLt
  have hN : cfg0.N = 48 := N_0
  let t : Fin cfg0.N := ⟨12 * (i 0).val + 2 * (i 1).val + 1, by omega⟩
  have ht : t.val = 12 * (i 0).val + 2 * (i 1).val + 1 := rfl
  obtain ⟨-, -, -, -, -, -, -, -, -, e30, e31, e32, e33⟩ := idx_facts0 t
  refine ⟨t, (flush0_3 t).mpr (by omega), ?_⟩
  rw [mem_blk0]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 32 ≤ (i 2).val ∧ (i 2).val < win0_3.index t (2 : Fin 4) * 32 + 32; omega
  | ⟨3, _⟩ => show win0_3.index t (3 : Fin 4) * 32 ≤ (i 3).val ∧ (i 3).val < win0_3.index t (3 : Fin 4) * 32 + 32; omega

end Cert.KernelIdeal.Hand

end
-- ==== Proof.KI.AttnValue.lean ====
/-
  The first kernel's result as one function of the arrays it reads.

  Only a second-half step writes its output block back.  What it stores is computed from its own two blocks, the
  temperature, and the accumulators as the first-half step before it left them: each accumulator is then the sum
  over the first half (added to zero) plus the sum over the second half, that is the sum over all 65536 positions.
  So the stored block is the softmax weights of its head, and the 24 written blocks tile the result.
-/
import proofs.«142308_j30777735643434_1_alg».proof.Proof.KI.AttnPieces
import proofs.«142308_j30777735643434_1_alg».proof.Proof.KI.AttnPay
import proofs.«142308_j30777735643434_1_alg».proof.Proof.KI.AttnBlocks
import proofs.«142308_j30777735643434_1_alg».proof.Proof.AttnArith
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

/-! ## The stored block, entry by entry -/

/-- The block a second-half step stores, when its blocks and the blocks of the step before it are the two halves of
    the query rows and key rows of head `h` of batch entry `b` and its temperature block is the head's: entry
    `(p, q)` is the softmax weight `(b, h, p, q)`. -/
theorem weights_entry (X : A3) (tmp : T3) (x0 x1 x0' x1' : Vec Ideal S1x32x32768 .f32) (x2 : Vec Ideal S1x1x1 .f32)
    (b : Fin 4) (h : Fin 6)
    (hq' : ∀ (p : Fin 32) (n : Fin 32768), x0' (ix3 (0 : Fin 1) p n) = X (ix3 b (qch h p) (⟨n.val, by omega⟩ : Fin 65536)))
    (hq : ∀ (p : Fin 32) (n : Fin 32768), x0 (ix3 (0 : Fin 1) p n) = X (ix3 b (qch h p) (⟨32768 + n.val, by omega⟩ : Fin 65536)))
    (hk' : ∀ (p : Fin 32) (n : Fin 32768), x1' (ix3 (0 : Fin 1) p n) = X (ix3 b (kch h p) (⟨n.val, by omega⟩ : Fin 65536)))
    (hk : ∀ (p : Fin 32) (n : Fin 32768), x1 (ix3 (0 : Fin 1) p n) = X (ix3 b (kch h p) (⟨32768 + n.val, by omega⟩ : Fin 65536)))
    (ht : x2 (ix3 (0 : Fin 1) (0 : Fin 1) (0 : Fin 1)) = tmp (ix3 h (0 : Fin 1) (0 : Fin 1)))
    (p q : Fin 32) :
    k0_pay2 (F := Ideal) (k0_pay8 x0 (k0_pay8 x0' (k0_pay4 (F := Ideal)))) (k0_pay9 x1 (k0_pay9 x1' (k0_pay5 (F := Ideal)))) x2
        (k0_pay1 (k0_pay10 x0 x1 (k0_pay1 (k0_pay10 x0' x1' (k0_pay3 (F := Ideal)))))) (ix4 (0 : Fin 1) (0 : Fin 1) p q)
      = attn X tmp (ix4 b h p q) := by
  refine ((pay2_apply _ _ _ _ p q).trans ?_).trans (attn_apply X tmp b h p q).symm
  refine congrArg (fun s => softmaxRow s q) (funext fun d => ?_)
  -- the inner product of query row `p` and key row `d`: first half added to zero, plus second half
  have e1 : k0_pay1 (F := Ideal) (k0_pay10 x0 x1 (k0_pay1 (k0_pay10 x0' x1' (k0_pay3 (F := Ideal))))) (ix2 p d) = dotqk X b h p d := by
    rw [pay1_eq, pay10_apply, pay1_eq, pay10_apply, pay3_apply]
    unfold dotqk
    rw [← sum_halves (fun n => X (ix3 b (qch h p) n) * X (ix3 b (kch h d) n))]
    exact congrArg₂ (· + ·)
      (congrArg (0 + ·) (Finset.sum_congr rfl fun n _ => congrArg₂ (· * ·) (hq' p n) (hk' d n)))
      (Finset.sum_congr rfl fun n _ => congrArg₂ (· * ·) (hq p n) (hk d n))
  -- the sums of squares of query row `p` and of key row `d`, likewise
  have e2 : k0_pay8 (F := Ideal) x0 (k0_pay8 x0' (k0_pay4 (F := Ideal))) (ix2 p (0 : Fin 1)) = sumsq X b (qch h p) := by
    rw [pay8_apply, pay8_apply, pay4_apply]
    unfold sumsq
    rw [← sum_halves (fun n => X (ix3 b (qch h p) n) * X (ix3 b (qch h p) n))]
    exact congrArg₂ (· + ·)
      (congrArg (0 + ·) (Finset.sum_congr rfl fun n _ => congrArg₂ (· * ·) (hq' p n) (hq' p n)))
      (Finset.sum_congr rfl fun n _ => congrArg₂ (· * ·) (hq p n) (hq p n))
  have e3 : k0_pay9 (F := Ideal) x1 (k0_pay9 x1' (k0_pay5 (F := Ideal))) (ix2 d (0 : Fin 1)) = sumsq X b (kch h d) := by
    rw [pay9_apply, pay9_apply, pay5_apply]
    unfold sumsq
    rw [← sum_halves (fun n => X (ix3 b (kch h d) n) * X (ix3 b (kch h d) n))]
    exact congrArg₂ (· + ·)
      (congrArg (0 + ·) (Finset.sum_congr rfl fun n _ => congrArg₂ (· * ·) (hk' d n) (hk' d n)))
      (Finset.sum_congr rfl fun n _ => congrArg₂ (· * ·) (hk d n) (hk d n))
  exact congrArg₂ (· * ·)
    (congrArg₂ Ideal.div e1
      (congrArg₂ (· * ·) (congrArg (fun z => max (Ideal.sqrt z) eps) e2) (congrArg (fun z => max (Ideal.sqrt z) eps) e3)))
    ht

/-- A 32×32 block whose entry `(p, q)` is `G` at `(b, h, p, q)`, laid where entry `(p, q)` of the block sits at
    `(b, h, p, q)`, is `G` read through that placement. -/
theorem block_read (G : W4) (Y : Vec Ideal S1x1x32x32 .f32) (e : S1x1x32x32.Idx → S4x6x32x32.Idx) (b : Fin 4) (h : Fin 6)
    (he : ∀ p q : Fin 32, e (ix4 (0 : Fin 1) (0 : Fin 1) p q) = ix4 b h p q)
    (hY : ∀ p q : Fin 32, Y (ix4 (0 : Fin 1) (0 : Fin 1) p q) = G (ix4 b h p q)) (y : S1x1x32x32.Idx) :
    Y y = G (e y) := by
  obtain ⟨u, u', p, q, rfl⟩ : ∃ (u u' : Fin 1) (p q : Fin 32), y = ix4 u u' p q := ⟨y 0, y 1, y 2, y 3, eq_ix4 y⟩
  obtain rfl : u = 0 := Subsingleton.elim _ _
  obtain rfl : u' = 0 := Subsingleton.elim _ _
  rw [he p q]
  exact hY p q

/-! ## What a step writes back, and the whole array -/

variable (V : (c : Dev nD) → (b : Ref sig .tc) → Buf (Elt Ideal) ((c : Thread nD τ).loc b))

/-- What a step that writes back writes: its block of the softmax weights. -/
theorem flushed0_eq (c : Dev nD) (t : Fin cfg0.N) (hf : (cfg0.win 3).flush t = true) :
    (dat0 (F := Ideal) V c).flushed 3 t
      = ((cfg0.win 3).blk t).view.read (Elt Ideal) (attn (V c main_v0) (V c main_arg1)) := by
  have h1 : t.val % 2 = 1 := (flush0_3 t).mp hf
  have h0 : ¬t.val % 2 = 0 := by omega
  have hN : t.val < 48 := lt_of_lt_of_eq t.isLt (show cfg0.N = 48 from N_0)
  have hlt' : t.val - 1 < cfg0.N := Nat.lt_of_le_of_lt (Nat.sub_le _ _) t.isLt
  have h0' : (⟨t.val - 1, hlt'⟩ : Fin cfg0.N).val % 2 = 0 := by show (t.val - 1) % 2 = 0; omega
  have h1' : ¬(⟨t.val - 1, hlt'⟩ : Fin cfg0.N).val % 2 = 1 := by show ¬(t.val - 1) % 2 = 1; omega
  have hb' : (⟨t.val - 1, hlt'⟩ : Fin cfg0.N).val / 12 = (⟨t.val / 12, by omega⟩ : Fin 4).val := by
    show (t.val - 1) / 12 = t.val / 12; omega
  have hh' : ((⟨t.val - 1, hlt'⟩ : Fin cfg0.N).val / 2) % 6 = (⟨(t.val / 2) % 6, by omega⟩ : Fin 6).val := by
    show ((t.val - 1) / 2) % 6 = (t.val / 2) % 6; omega
  have hA : outsAt0 V c (t.val - 1) hlt' = _ := outsAt0_A V c ⟨t.val - 1, hlt'⟩ h0' h1'
  show (cfg0.win 3).cut (grid0.coords t) ((dat0 (F := Ideal) V c).after 3 t) = _
  rw [after0_3, outsAt0_B V c t h0 h1]
  dsimp only
  rw [outB_3_eq, hA]
  dsimp only
  rw [soutA_0_eq, soutA_1_eq, soutA_2_eq]
  have hbl : t.val / 12 < 4 := by omega
  have hhl : (t.val / 2) % 6 < 6 := by omega
  have he : ∀ p q : Fin 32, (((cfg0.win 3).blk t).view.emb (ix4 (0 : Fin 1) (0 : Fin 1) p q) : S4x6x32x32.Idx)
      = ix4 (⟨t.val / 12, hbl⟩ : Fin 4) (⟨(t.val / 2) % 6, hhl⟩ : Fin 6) p q :=
    fun p q => o_block t ⟨t.val / 12, hbl⟩ ⟨(t.val / 2) % 6, hhl⟩ rfl rfl p q
  have hq' := q_block_even V c ⟨t.val - 1, hlt'⟩ ⟨t.val / 12, hbl⟩ ⟨(t.val / 2) % 6, hhl⟩ hb' hh' h0'
  have hq := q_block_odd V c t ⟨t.val / 12, hbl⟩ ⟨(t.val / 2) % 6, hhl⟩ rfl rfl h1
  have hk' := k_block_even V c ⟨t.val - 1, hlt'⟩ ⟨t.val / 12, hbl⟩ ⟨(t.val / 2) % 6, hhl⟩ hb' hh' h0'
  have hk := k_block_odd V c t ⟨t.val / 12, hbl⟩ ⟨(t.val / 2) % 6, hhl⟩ rfl rfl h1
  have htm := t_block V c t ⟨(t.val / 2) % 6, hhl⟩ rfl
  have hY := weights_entry (V c main_v0) (V c main_arg1)
      (iblk0 V c 0 t) (iblk0 V c 1 t) (iblk0 V c 0 ⟨t.val - 1, hlt'⟩) (iblk0 V c 1 ⟨t.val - 1, hlt'⟩) (iblk0 V c 2 t)
      ⟨t.val / 12, hbl⟩ ⟨(t.val / 2) % 6, hhl⟩ hq' hq hk' hk htm
  funext y
  -- the write-back moves the whole block, and reading the array through the block reads it at the placed index
  have hcut : ∀ Y : Vec Ideal S1x1x32x32 .f32, (cfg0.win 3).cut (grid0.coords t) Y y = Y y := fun Y => rfl
  have hread : ∀ G : W4, ((cfg0.win 3).blk t).view.read (Elt Ideal) G y = G (((cfg0.win 3).blk t).view.emb y) := fun G => rfl
  refine (hcut _).trans (Eq.trans ?_ (hread _).symm)
  exact block_read (attn (V c main_v0) (V c main_arg1)) _ (((cfg0.win 3).blk t).view.emb)
    ⟨t.val / 12, hbl⟩ ⟨(t.val / 2) % 6, hhl⟩ he hY y

/-- The weights array after the kernel: the softmax weights of every head. -/
theorem final0 (c : Dev nD) :
    (dat0 (F := Ideal) V c).arrAt 3 cfg0.N = Cert.Attn.attn (V c main_v0) (V c main_arg1) :=
  (dat0 (F := Ideal) V c).arrAt_eq_of_cover 3 (attn (V c main_v0) (V c main_arg1)) (fun t hf => flushed0_eq V c t hf) cover0

end Cert.KernelIdeal.Hand

end
-- ==== Proof.KI.OutValue.lean ====
/-
  The second kernel's result as one function of the two arrays it reads.

  At the grid point `(b, h, s)` the kernel reads the weights of head `h` of batch entry `b` (a 32×32 block) and
  the value rows `384 + 32 h … 384 + 32 h + 31` of that entry at the positions `32768 s … 32768 s + 32767`, and
  writes rows `32 h … 32 h + 31` of the result at those positions: entry `(r, n)` of the block is the sum over
  `d` of weight `(r, d)` times value `(d, n)`.  The 48 blocks tile the result, so the result array is
  `Cert.Attn.applyTo` of the two arrays.
-/
import proofs.«142308_j30777735643434_1_alg».proof.Proof.KI.Out
import proofs.«142308_j30777735643434_1_alg».proof.Proof.Spec
import proofs.«142308_j30777735643434_1_alg».proof.Proof.LibMatmulCols
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open Cert.Attn

/-! ## The block's arithmetic at one entry -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A `[1, 1, a, b]` array viewed as `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- Entry `(r, n)` of the block the kernel stores: the sum over `d` of weight `(r, d)` times value `(d, n)`.  The
    changes of float format are the identity on the extended reals and the product into the zero accumulator is the
    plain sum. -/
theorem pay1_apply (x0 : Vec Ideal S1x1x32x32 .f32) (x1 : Vec Ideal S1x32x32768 .f32) (u : Fin 1) (r : Fin 32) (n : Fin 32768) :
    k1_pay1 x0 x1 (ix3 u r n) = ∑ d : Fin 32, x0 (ix4 (0 : Fin 1) (0 : Fin 1) r d) * x1 (ix3 (0 : Fin 1) d n) := by
  unfold k1_pay1
  refine (shapeCast_ab_1ab_apply _ _ u r n).trans ?_
  refine (Cert.Lib.MatmulCols.matmul_zero_plain dot_S32x32_S32x32768_S32x32768_1_0_0_1_n_n_wf none _ _ r n).trans ?_
  refine Finset.sum_congr rfl fun d _ => ?_
  exact congrArg₂ (· * ·) (shapeCast_11ab_ab_apply x0 _ r d) (shapeCast_1ab_ab_apply x1 _ d n)

/-- A block whose two inputs are the weights of head `h` of batch entry `b` and that head's value rows at the
    positions of half `s` holds, at `y`, the result's entry at the array index `i` under `y`. -/
theorem block_entry (a : W4) (x : A3) (x0 : Vec Ideal S1x1x32x32 .f32) (x1 : Vec Ideal S1x32x32768 .f32)
    (b : Fin 4) (h : Fin 6) (s : Fin 2)
    (h0 : ∀ (r d : Fin 32), x0 (ix4 (0 : Fin 1) (0 : Fin 1) r d) = a (ix4 b h r d))
    (h1 : ∀ (d : Fin 32) (n : Fin 32768), x1 (ix3 (0 : Fin 1) d n) = x (ix3 b (vch h d) (⟨32768 * s.val + n.val, by omega⟩ : Fin 65536)))
    (y : S1x32x32768.Idx) (i : S4x192x65536.Idx)
    (hi0 : (i 0).val = b.val) (hi1 : (i 1).val = 32 * h.val + (y 1).val) (hi2 : (i 2).val = 32768 * s.val + (y 2).val) :
    k1_pay1 x0 x1 y = applyTo a x i := by
  obtain ⟨u, r, n, rfl⟩ : ∃ (u : Fin 1) (r : Fin 32) (n : Fin 32768), y = ix3 u r n := ⟨y 0, y 1, y 2, eq_ix3 y⟩
  have hb : (i 0 : Fin 4) = b := Fin.ext hi0
  have hh : headOf (i 1) = h := Fin.ext (by show (i 1).val / 32 = h.val; have := r.isLt; have : (i 1).val = 32 * h.val + r.val := hi1; omega)
  have hr : rowOf (i 1) = r := Fin.ext (by show (i 1).val % 32 = r.val; have := r.isLt; have : (i 1).val = 32 * h.val + r.val := hi1; omega)
  have hlt : 32768 * s.val + n.val < 65536 := by have := s.isLt; have := n.isLt; omega
  have hn : (i 2 : Fin 65536) = (⟨32768 * s.val + n.val, hlt⟩ : Fin 65536) := Fin.ext hi2
  rw [pay1_apply]
  show _ = ∑ d : Fin 32, a (ix4 (i 0) (headOf (i 1)) (rowOf (i 1)) d) * x (ix3 (i 0) (vch (headOf (i 1)) d) (i 2))
  rw [hb, hh, hr, hn]
  exact Finset.sum_congr rfl fun d _ => congrArg₂ (· * ·) (h0 r d) (h1 d n)

/-! ## The three index maps over the grid -/

/-- The weights' block and the value rows' block move with the output's: the same batch entry and head, the value
    rows 12 blocks further down the channels, the same half of the positions. -/
theorem idx_facts1 : ∀ t : Fin cfg1.N, win1_0.index t (0 : Fin 4) = win1_2.index t (0 : Fin 3)
    ∧ win1_0.index t (1 : Fin 4) = win1_2.index t (1 : Fin 3)
    ∧ win1_0.index t (2 : Fin 4) = 0
    ∧ win1_0.index t (3 : Fin 4) = 0
    ∧ win1_1.index t (0 : Fin 3) = win1_2.index t (0 : Fin 3)
    ∧ win1_1.index t (1 : Fin 3) = 12 + win1_2.index t (1 : Fin 3)
    ∧ win1_1.index t (2 : Fin 3) = win1_2.index t (2 : Fin 3)
    ∧ win1_2.index t (0 : Fin 3) < 4 ∧ win1_2.index t (1 : Fin 3) < 6 ∧ win1_2.index t (2 : Fin 3) < 2 :=
  (by decide +kernel : ∀ t : Fin grid1.N, _)

/-- Every block of the result is some point's. -/
theorem idx_onto1 : ∀ (q0 : Fin 4) (q1 : Fin 6) (q2 : Fin 2), ∃ t : Fin cfg1.N, win1_2.index t = ![q0.val, q1.val, q2.val] :=
  (by decide +kernel : ∀ (q0 : Fin 4) (q1 : Fin 6) (q2 : Fin 2), ∃ t : Fin grid1.N, win1_2.index t = ![q0.val, q1.val, q2.val])

/-! ## What a point writes back, and the whole array -/

variable (V : (c : Dev nD) → (b : Ref sig .tc) → Buf (Elt Ideal) ((c : Thread nD τ).loc b))

/-- What point `t` writes back is block `t` of the weights applied to the value rows. -/
theorem flushed1_eq (c : Dev nD) (t : Fin cfg1.N) :
    (dat1 (F := Ideal) V c).flushed 2 t
      = ((cfg1.win 2).blk t).view.read (Elt Ideal) (applyTo (V c main_v1) (V c main_v0)) := by
  show (cfg1.win 2).cut (grid1.coords t) ((dat1 (F := Ideal) V c).after 2 t) = _
  rw [after1_2]
  unfold out1_2
  rw [View.canon_unit_zero hz3]
  simp only [View.ld_unit_zero (S := S1x1x32x32) hz4, View.ld_unit_zero (S := S1x32x32768) hz3]
  obtain ⟨e0, e1, e2, e3, e4, e5, e6, b0, b1, b2⟩ := idx_facts1 t
  funext j
  show k1_pay1 (iblk1 V c 0 t) (iblk1 V c 1 t) j = applyTo (V c main_v1) (V c main_v0) (((cfg1.win 2).blk t).view.emb j)
  refine block_entry (V c main_v1) (V c main_v0) (iblk1 V c 0 t) (iblk1 V c 1 t)
    ⟨win1_2.index t (0 : Fin 3), b0⟩ ⟨win1_2.index t (1 : Fin 3), b1⟩ ⟨win1_2.index t (2 : Fin 3), b2⟩ ?_ ?_ j _ ?_ ?_ ?_
  · intro r d
    show V c main_v1 (((cfg1.win 0).blk t).view.emb (ix4 (0 : Fin 1) (0 : Fin 1) r d)) = V c main_v1 _
    refine congrArg (V c main_v1) (funext fun a => Fin.ext ?_)
    match a with
    | ⟨0, _⟩ => show win1_0.index t (0 : Fin 4) * 1 + 1 * 0 = win1_2.index t (0 : Fin 3); omega
    | ⟨1, _⟩ => show win1_0.index t (1 : Fin 4) * 1 + 1 * 0 = win1_2.index t (1 : Fin 3); omega
    | ⟨2, _⟩ => show win1_0.index t (2 : Fin 4) * 32 + 1 * r.val = r.val; omega
    | ⟨3, _⟩ => show win1_0.index t (3 : Fin 4) * 32 + 1 * d.val = d.val; omega
  · intro d n
    show V c main_v0 (((cfg1.win 1).blk t).view.emb (ix3 (0 : Fin 1) d n)) = V c main_v0 _
    refine congrArg (V c main_v0) (funext fun a => Fin.ext ?_)
    match a with
    | ⟨0, _⟩ => show win1_1.index t (0 : Fin 3) * 1 + 1 * 0 = win1_2.index t (0 : Fin 3); omega
    | ⟨1, _⟩ => show win1_1.index t (1 : Fin 3) * 32 + 1 * d.val = 384 + (32 * win1_2.index t (1 : Fin 3) + d.val); omega
    | ⟨2, _⟩ => show win1_1.index t (2 : Fin 3) * 32768 + 1 * n.val = 32768 * win1_2.index t (2 : Fin 3) + n.val; omega
  · show win1_2.index t (0 : Fin 3) * 1 + 1 * (j 0).val = win1_2.index t (0 : Fin 3)
    have hj : (j 0).val < 1 := (j 0).isLt
    omega
  · show win1_2.index t (1 : Fin 3) * 32 + 1 * (j 1).val = 32 * win1_2.index t (1 : Fin 3) + (j 1).val
    omega
  · show win1_2.index t (2 : Fin 3) * 32768 + 1 * (j 2).val = 32768 * win1_2.index t (2 : Fin 3) + (j 2).val
    omega

/-- An index of the result is in point `t`'s block iff each coordinate is in the block's range on its axis. -/
theorem mem_blk1 (t : Fin cfg1.N) (i : S4x192x65536.Idx) :
    i ∈ ((cfg1.win 2).blk t).view.set ↔ ∀ a : Fin 3, win1_2.index t a * S1x32x32768.size a ≤ (i a).val ∧ (i a).val < win1_2.index t a * S1x32x32768.size a + S1x32x32768.size a := by
  show i ∈ ((View.whole main_v2).slice (win1_2.rect t)).set ↔ _
  rw [View.set_slice_whole, Rect.mem_set_unit]
  exact Iff.rfl

/-- Every entry of the result lies in some point's block: row `ch` of batch entry `b` at position `n` in the block
    of head `ch / 32` and half `n / 32768`. -/
theorem cover1 (i : S4x192x65536.Idx) :
    ∃ t : Fin cfg1.N, (cfg1.win 2).flush t = true ∧ i ∈ ((cfg1.win 2).blk t).view.set := by
  have hi0 : (i 0).val < 4 := (i 0).isLt
  have hi1 : (i 1).val < 192 := (i 1).isLt
  have hi2 : (i 2).val < 65536 := (i 2).isLt
  obtain ⟨t, ht⟩ := idx_onto1 ⟨(i 0).val, hi0⟩ ⟨(i 1).val / 32, by omega⟩ ⟨(i 2).val / 32768, by omega⟩
  have q0 : win1_2.index t (0 : Fin 3) = (i 0).val := congrFun ht 0
  have q1 : win1_2.index t (1 : Fin 3) = (i 1).val / 32 := congrFun ht 1
  have q2 : win1_2.index t (2 : Fin 3) = (i 2).val / 32768 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 32 ≤ (i 1).val ∧ (i 1).val < win1_2.index t (1 : Fin 3) * 32 + 32; omega
  | ⟨2, _⟩ => show win1_2.index t (2 : Fin 3) * 32768 ≤ (i 2).val ∧ (i 2).val < win1_2.index t (2 : Fin 3) * 32768 + 32768; omega

/-- The result array after the kernel: the weights applied to the value rows. -/
theorem final1 (c : Dev nD) :
    (dat1 (F := Ideal) V c).arrAt 2 cfg1.N = Cert.Attn.applyTo (V c main_v1) (V c main_v0) :=
  (dat1 (F := Ideal) V c).arrAt_eq_of_cover 2 (applyTo (V c main_v1) (V c main_v0)) (fun t _ => flushed1_eq V c t) cover1

end Cert.KernelIdeal.Hand

end
-- ==== Proof.KI.Result.lean ====
/-
  The result buffer at the end of the program is the specification of the two arguments: the first reshape flattens
  the positions, the first region leaves the softmax weights of the flattened input, the second applies them to the
  value rows, the last reshape unflattens.
-/
import proofs.«142308_j30777735643434_1_alg».proof.Proof.KI.Boundary
import proofs.«142308_j30777735643434_1_alg».proof.Proof.KI.AttnValue
import proofs.«142308_j30777735643434_1_alg».proof.Proof.KI.OutValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Attn

variable (m : (ℓ : Loc nD τ sig) → Buf (Elt Ideal) ℓ)

/-- THE RESULT: the program's result buffer ends at the specification of its two arguments. -/
theorem result_eq (c : Dev nD) :
    W4 (F := Ideal) m c (Proc.devRef .tc main_v3) = G (m ((c : Thread nD τ).loc main_arg0)) (m ((c : Thread nD τ).loc main_arg1)) := by
  rw [W4_v3]
  have e2 : W3 (F := Ideal) m c (Proc.devRef .tc main_v2) = applyTo (V2 m c main_v1) (V2 m c main_v0) :=
    (W3_arr m c 2).trans (final1 (V2 m) c)
  have e1 : V2 (F := Ideal) m c main_v1 = attn (V1 m c main_v0) (V1 m c main_arg1) :=
    (W2_v1 m c).trans (final0 (V1 m) c)
  have e0 : V2 (F := Ideal) m c main_v0 = V1 m c main_v0 := W2_of_ne m c main_v0 (by decide)
  have ea : V1 (F := Ideal) m c main_arg1 = m ((c : Thread nD τ).loc main_arg1) := W1_of_ne m c main_arg1 (by decide)
  rw [e2, e1, e0, ea, show V1 (F := Ideal) m c main_v0 = flat (m ((c : Thread nD τ).loc main_arg0)) from W1_v0 m c]
  rfl

end Cert.KernelIdeal.Hand

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«142308_j30777735643434_1_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.RefFinite.lean ====
/-
  The precondition read back: every entry of the first argument is a real number.

  The precondition compares the absolute value of every entry of each argument with plus infinity, folds the one-bit
  answers of each argument by `and` into one bit, and joins the two bits by `and`.  If the result is 1, both folds
  are 1, so every comparison of the first argument is 1, and an extended real whose absolute value is below plus
  infinity is a real number.
-/
import proofs.«142308_j30777735643434_1_alg».proof.Pre_finite_inputs
import proofs.«142308_j30777735643434_1_alg».proof.Proof.LibAllFinite
import Idealize.ShloMosaic.Lib.Affine
import Idealize.ShloMosaic.Lib.ValueIdx
import Idealize.ShloMosaic.Lib.Pipeline.Value

noncomputable section

namespace Cert.Attn.Ref

open Idealize.ShloMosaic Idealize.SL.Sem

/-- the precondition's function being all ones makes every entry of the first argument a real number -/
theorem finite_arg0 [Cert.Pre_finite_inputs.Facts] (a0 : FVec Ideal Cert.Pre_finite_inputs.S4x576x256x256 .f32) (a1 : FVec Ideal Cert.Pre_finite_inputs.S6x1x1 .f32)
    (h : Cert.Pre_finite_inputs.fn (F := Ideal) a0 a1 = fun _ => 1#1) : ∀ i, ∃ r : ℝ, a0 i = (r : EReal) := by
  have h0 := congrFun h ValueIdx.ix0
  dsimp only [Cert.Pre_finite_inputs.fn] at h0
  have h1 := (IntOp.andi_eq_one.mp h0).1
  refine Cert.Lib.AllFinite.real_of_all_abs_lt_top a0 _ (fun i => ?_) _ _ _ ValueIdx.ix0 h1
  exact (broadcastInDim_apply ![] _ _ i ValueIdx.ix0 (fun a => a.elim0)).trans (ValueIdx.constant_apply _ _)

end Cert.Attn.Ref

end
-- ==== Proof.RefAlgebra.lean ====
/-
  The one law that joins the two arrangements of the score.

  The reference divides every query entry by its row's floored norm and every key entry by its row's, and then takes
  the inner product; the specification takes the inner product of the raw rows and divides once by the product of the
  two floored norms.  Over the extended reals these agree when the entries are real numbers: the sums of squares are
  then nonnegative reals, their square roots reals, the floored norms POSITIVE reals `a` and `b` (the floor is a
  positive real), and over the reals  Σ (qₙ / a)·(kₙ / b) = (Σ qₙ·kₙ) / (a·b).
-/
import proofs.«142308_j30777735643434_1_alg».proof.Proof.Spec

noncomputable section

open scoped BigOperators

namespace Cert.Attn.Ref

open Idealize.ShloMosaic Idealize.ShloMosaic.ValueIdx Cert.Attn

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The floor under a norm is a positive real number. -/
theorem eps_pos : ∃ e : ℝ, 0 < e ∧ eps = (e : EReal) := by
  have h : (0 : EReal) < eps ∧ eps ≠ ⊤ := by
    unfold eps
    simp [Ideal.ofBits, Ideal.ieee, -EReal.coe_mul]
  exact ⟨eps.toReal, EReal.toReal_pos h.1 h.2, (EReal.coe_toReal h.2 (ne_bot_of_gt h.1)).symm⟩

/-- Rows of real numbers, each entry divided by its row's positive real norm: the inner product of the divided rows
    is the inner product of the rows divided by the product of the norms. -/
theorem sum_div_mul_div {ι : Type*} [Fintype ι] (q k : ι → EReal) (hq : ∀ n, ∃ r : ℝ, q n = (r : EReal))
    (hk : ∀ n, ∃ r : ℝ, k n = (r : EReal)) (a b : ℝ) (ha : 0 < a) (hb : 0 < b) :
    ∑ n, Ideal.div (q n) (a : EReal) * Ideal.div (k n) (b : EReal)
      = Ideal.div (∑ n, q n * k n) ((a : EReal) * (b : EReal)) := by
  choose q' hq' using hq
  choose k' hk' using hk
  simp only [hq', hk']
  rw [← EReal.coe_mul a b]
  simp only [Ideal.div_coe ha.ne', Ideal.div_coe hb.ne', Ideal.div_coe (mul_pos ha hb).ne', ← EReal.coe_mul, ← coe_sum]
  refine congrArg _ ?_
  rw [Finset.sum_mul]
  refine Finset.sum_congr rfl fun n _ => ?_
  field_simp

/-- The floored norm of a channel of real numbers is a positive real number. -/
theorem nrm_pos (x : A3) (b : Fin 4) (ch : Fin 576) (hx : ∀ n, ∃ r : ℝ, x (ix3 b ch n) = (r : EReal)) :
    ∃ a : ℝ, 0 < a ∧ nrm x b ch = (a : EReal) := by
  choose x' hx' using hx
  obtain ⟨e, he, hee⟩ := eps_pos
  have hss : sumsq x b ch = ((∑ n : Fin 65536, x' n * x' n : ℝ) : EReal) := by
    unfold sumsq
    simp only [hx', ← EReal.coe_mul, ← coe_sum]
  have hnn : ¬ (∑ n : Fin 65536, x' n * x' n) < 0 :=
    not_lt.mpr (Finset.sum_nonneg fun n _ => mul_self_nonneg (x' n))
  refine ⟨max (Real.sqrt (∑ n : Fin 65536, x' n * x' n)) e, lt_max_of_lt_right he, ?_⟩
  unfold nrm
  rw [hss, Ideal.sqrt_coe, if_neg hnn, hee]
  exact (EReal.coe_strictMono.monotone.map_max).symm

/-- The score's two arrangements: normalise the rows and take the inner product, or take the inner product and
    divide by the product of the floored norms. -/
theorem normalized_dot (x : A3) (hx : ∀ i, ∃ r : ℝ, x i = (r : EReal)) (b : Fin 4) (h : Fin 6) (c d : Fin 32) :
    ∑ n : Fin 65536, Ideal.div (x (ix3 b (qch h c) n)) (nrm x b (qch h c))
        * Ideal.div (x (ix3 b (kch h d) n)) (nrm x b (kch h d))
      = Ideal.div (dotqk x b h c d) (nrm x b (qch h c) * nrm x b (kch h d)) := by
  obtain ⟨a, ha, hae⟩ := nrm_pos x b (qch h c) fun n => hx _
  obtain ⟨a', ha', hae'⟩ := nrm_pos x b (kch h d) fun n => hx _
  rw [hae, hae']
  exact sum_div_mul_div _ _ (fun n => hx _) (fun n => hx _) a a' ha ha'

end Cert.Attn.Ref

end
-- ==== Proof.RefScore.lean ====
/-
  The reference's scores, read entry by entry.

  The reference cuts the queries, keys and values out of the input (channels 0–191, 192–383, 384–575), regroups each
  as 6 heads of 32 rows of 65536 positions, divides every query and key row by the larger of its Euclidean norm and a
  small constant, takes the 32×32 inner products of the divided rows, and multiplies by the head's temperature.  Read
  at an index: a regrouped entry `(b, h, c, n)` is the input's entry `(b, 32 h + c, n / 256, n % 256)` (plus 192 or
  384 on the channel); a divided row's entry is the entry over the row's floored norm; and, the entries being real
  numbers, the inner product of two divided rows is the inner product of the rows over the product of the two floored
  norms — which is the score of the specification.
-/
import proofs.«142308_j30777735643434_1_alg».proof.Proof.Gen.ReferenceIdeal.Read
import proofs.«142308_j30777735643434_1_alg».proof.Proof.Spec
import proofs.«142308_j30777735643434_1_alg».proof.Proof.RefAlgebra
import Idealize.ShloMosaic.Lib.IdealHost

noncomputable section

open scoped BigOperators

namespace Cert.Attn.Ref

open Idealize.ShloMosaic Idealize.ShloMosaic.ValueIdx Cert.ReferenceIdeal Cert.ReferenceIdeal.Read Cert.Attn

/-- The reference's first argument and second argument, as arrays of extended reals. -/
abbrev X0 : Type := (⟨S4x576x256x256, .f32⟩ : BufTy).Contents (Elt Ideal)
abbrev X1 : Type := (⟨S6x1x1, .f32⟩ : BufTy).Contents (Elt Ideal)

/-! ## The three slices, regrouped -/

/-- Entry `(b, h, c, n)` of the regrouped queries sits at channel `32 h + c`, position `(n / 256, n % 256)`. -/
theorem idx_q (b : Fin 4) (h : Fin 6) (c : Fin 32) (n : Fin 65536) :
    idx_main_v0 (idx_main_v3 (ix4 b h c n)) = ix4 b (qch h c) (hi n) (lo n) := by
  have hb := b.isLt; have hh := h.isLt; have hc := c.isLt; have hn := n.isLt
  funext a
  refine Fin.ext ?_
  match a with
  | ⟨0, _⟩ => show (((b.val * 6 + h.val) * 32 + c.val) * 65536 + n.val) / 12582912 = b.val; omega
  | ⟨1, _⟩ => show (((b.val * 6 + h.val) * 32 + c.val) * 65536 + n.val) / 65536 % 192 = 32 * h.val + c.val; omega
  | ⟨2, _⟩ => show (((b.val * 6 + h.val) * 32 + c.val) * 65536 + n.val) / 256 % 256 = n.val / 256; omega
  | ⟨3, _⟩ => show (((b.val * 6 + h.val) * 32 + c.val) * 65536 + n.val) % 256 = n.val % 256; omega

/-- Entry `(b, h, d, n)` of the regrouped keys sits at channel `192 + 32 h + d`. -/
theorem idx_k (b : Fin 4) (h : Fin 6) (d : Fin 32) (n : Fin 65536) :
    idx_main_v1 (idx_main_v4 (ix4 b h d n)) = ix4 b (kch h d) (hi n) (lo n) := by
  have hb := b.isLt; have hh := h.isLt; have hd := d.isLt; have hn := n.isLt
  funext a
  refine Fin.ext ?_
  match a with
  | ⟨0, _⟩ => show (((b.val * 6 + h.val) * 32 + d.val) * 65536 + n.val) / 12582912 = b.val; omega
  | ⟨1, _⟩ => show 192 + (((b.val * 6 + h.val) * 32 + d.val) * 65536 + n.val) / 65536 % 192 = 192 + (32 * h.val + d.val); omega
  | ⟨2, _⟩ => show (((b.val * 6 + h.val) * 32 + d.val) * 65536 + n.val) / 256 % 256 = n.val / 256; omega
  | ⟨3, _⟩ => show (((b.val * 6 + h.val) * 32 + d.val) * 65536 + n.val) % 256 = n.val % 256; omega

/-- Entry `(b, h, d, n)` of the regrouped values sits at channel `384 + 32 h + d`. -/
theorem idx_v (b : Fin 4) (h : Fin 6) (d : Fin 32) (n : Fin 65536) :
    idx_main_v2 (idx_main_v5 (ix4 b h d n)) = ix4 b (vch h d) (hi n) (lo n) := by
  have hb := b.isLt; have hh := h.isLt; have hd := d.isLt; have hn := n.isLt
  funext a
  refine Fin.ext ?_
  match a with
  | ⟨0, _⟩ => show (((b.val * 6 + h.val) * 32 + d.val) * 65536 + n.val) / 12582912 = b.val; omega
  | ⟨1, _⟩ => show 384 + (((b.val * 6 + h.val) * 32 + d.val) * 65536 + n.val) / 65536 % 192 = 384 + (32 * h.val + d.val); omega
  | ⟨2, _⟩ => show (((b.val * 6 + h.val) * 32 + d.val) * 65536 + n.val) / 256 % 256 = n.val / 256; omega
  | ⟨3, _⟩ => show (((b.val * 6 + h.val) * 32 + d.val) * 65536 + n.val) % 256 = n.val % 256; omega

/-- The regrouped queries, keys and values are the flattened input at the query, key and value channels. -/
theorem q_at (x0 : X0) (b : Fin 4) (h : Fin 6) (c : Fin 32) (n : Fin 65536) :
    val_main_v3 (F := Ideal) x0 (ix4 b h c n) = flat x0 (ix3 b (qch h c) n) := by
  rw [val_main_v3_apply, val_main_v0_apply, idx_q]; rfl
theorem k_at (x0 : X0) (b : Fin 4) (h : Fin 6) (d : Fin 32) (n : Fin 65536) :
    val_main_v4 (F := Ideal) x0 (ix4 b h d n) = flat x0 (ix3 b (kch h d) n) := by
  rw [val_main_v4_apply, val_main_v1_apply, idx_k]; rfl
theorem v_at (x0 : X0) (b : Fin 4) (h : Fin 6) (d : Fin 32) (n : Fin 65536) :
    val_main_v5 (F := Ideal) x0 (ix4 b h d n) = flat x0 (ix3 b (vch h d) n) := by
  rw [val_main_v5_apply, val_main_v2_apply, idx_v]; rfl

/-! ## The floored norms -/

/-- The query rows' floored norms (kept with a trailing axis of extent one). -/
theorem qnorm_at (x0 : X0) (b : Fin 4) (h : Fin 6) (c : Fin 32) (j : Fin 1) :
    val_main_v8 (F := Ideal) x0 (ix4 b h c j) = nrm (flat x0) b (qch h c) := by
  have e : ∀ k : Fin 65536, idx_main_call0_v1 (idx_main_call0_v2 (ix4 b h c j)) k = ix4 b h c k := fun k =>
    funext fun a => Fin.ext (by match a with | ⟨0, _⟩ => rfl | ⟨1, _⟩ => rfl | ⟨2, _⟩ => rfl | ⟨3, _⟩ => rfl)
  rw [val_main_v8_apply, val_main_v6_apply, val_main_call0_v2_apply, val_main_call0_v1_apply, val_main_v7_apply,
    val_main_cst_apply, val_main_call0_cst_apply]
  simp only [val_main_call0_v0_apply, e, q_at, Ideal.maximumf_def, Ideal.hostUnary_sqrt_def, Ideal.mulf_def,
    Ideal.ofBits_def, Ideal.ofBits_zero_f32, zero_add]
  rfl

/-- The key rows' floored norms. -/
theorem knorm_at (x0 : X0) (b : Fin 4) (h : Fin 6) (d : Fin 32) (j : Fin 1) :
    val_main_v13 (F := Ideal) x0 (ix4 b h d j) = nrm (flat x0) b (kch h d) := by
  have e : ∀ k : Fin 65536, idx_main_call1_v1 (idx_main_call1_v2 (ix4 b h d j)) k = ix4 b h d k := fun k =>
    funext fun a => Fin.ext (by match a with | ⟨0, _⟩ => rfl | ⟨1, _⟩ => rfl | ⟨2, _⟩ => rfl | ⟨3, _⟩ => rfl)
  rw [val_main_v13_apply, val_main_v11_apply, val_main_call1_v2_apply, val_main_call1_v1_apply, val_main_v12_apply,
    val_main_cst_0_apply, val_main_call1_cst_apply]
  simp only [val_main_call1_v0_apply, e, k_at, Ideal.maximumf_def, Ideal.hostUnary_sqrt_def, Ideal.mulf_def,
    Ideal.ofBits_def, Ideal.ofBits_zero_f32, zero_add]
  rfl

/-! ## The divided rows -/

theorem qdiv_at (x0 : X0) (b : Fin 4) (h : Fin 6) (c : Fin 32) (n : Fin 65536) :
    val_main_v10 (F := Ideal) x0 (ix4 b h c n)
      = Ideal.div (flat x0 (ix3 b (qch h c) n)) (nrm (flat x0) b (qch h c)) := by
  have e : idx_main_v9 (ix4 b h c n) = ix4 b h c (0 : Fin 1) :=
    funext fun a => Fin.ext (by match a with | ⟨0, _⟩ => rfl | ⟨1, _⟩ => rfl | ⟨2, _⟩ => rfl | ⟨3, _⟩ => rfl)
  rw [val_main_v10_apply, val_main_v9_apply, e, qnorm_at, q_at, Ideal.hostDivf_def]

theorem kdiv_at (x0 : X0) (b : Fin 4) (h : Fin 6) (d : Fin 32) (n : Fin 65536) :
    val_main_v15 (F := Ideal) x0 (ix4 b h d n)
      = Ideal.div (flat x0 (ix3 b (kch h d) n)) (nrm (flat x0) b (kch h d)) := by
  have e : idx_main_v14 (ix4 b h d n) = ix4 b h d (0 : Fin 1) :=
    funext fun a => Fin.ext (by match a with | ⟨0, _⟩ => rfl | ⟨1, _⟩ => rfl | ⟨2, _⟩ => rfl | ⟨3, _⟩ => rfl)
  rw [val_main_v15_apply, val_main_v14_apply, e, knorm_at, k_at, Ideal.hostDivf_def]

/-! ## The scores -/

/-- An input of real numbers flattens to real numbers. -/
theorem flat_real (x0 : X0) (hx : ∀ i, ∃ r : ℝ, x0 i = (r : EReal)) : ∀ i, ∃ r : ℝ, flat x0 i = (r : EReal) :=
  fun _ => hx _

/-- The inner products of the divided rows, for an input of real numbers: the inner product of the rows over the
    product of the floored norms. -/
theorem dot_at (x0 : X0) (hx : ∀ i, ∃ r : ℝ, x0 i = (r : EReal)) (b : Fin 4) (h : Fin 6) (c d : Fin 32) :
    val_main_v16 (F := Ideal) x0 (ix4 b h c d)
      = Ideal.div (dotqk (flat x0) b h c d) (nrm (flat x0) b (qch h c) * nrm (flat x0) b (kch h d)) := by
  have el : ∀ k : Fin 65536, lidx_main_v16 (ix4 b h c d) k = ix4 b h c k := fun k =>
    funext fun a => Fin.ext (by match a with | ⟨0, _⟩ => rfl | ⟨1, _⟩ => rfl | ⟨2, _⟩ => rfl | ⟨3, _⟩ => rfl)
  have er : ∀ k : Fin 65536, ridx_main_v16 (ix4 b h c d) k = ix4 b h d k := fun k =>
    funext fun a => Fin.ext (by match a with | ⟨0, _⟩ => rfl | ⟨1, _⟩ => rfl | ⟨2, _⟩ => rfl | ⟨3, _⟩ => rfl)
  rw [val_main_v16_apply]
  simp only [el, er, qdiv_at, kdiv_at]
  exact normalized_dot (flat x0) (flat_real x0 hx) b h c d

/-- The reference's scaled inner products are the specification's scores. -/
theorem score_at (x0 : X0) (x1 : X1) (hx : ∀ i, ∃ r : ℝ, x0 i = (r : EReal)) (b : Fin 4) (h : Fin 6) (c d : Fin 32) :
    val_main_v19 (F := Ideal) x0 x1 (ix4 b h c d) = score (flat x0) x1 b h c d := by
  have e : idx_main_v17 (idx_main_v18 (ix4 b h c d)) = ix3 h (0 : Fin 1) (0 : Fin 1) :=
    funext fun a => Fin.ext (by match a with | ⟨0, _⟩ => rfl | ⟨1, _⟩ => rfl | ⟨2, _⟩ => rfl)
  rw [val_main_v19_apply, val_main_v18_apply, val_main_v17_apply, e, dot_at x0 hx, Ideal.mulf_def]
  rfl

end Cert.Attn.Ref

end
-- ==== Proof.RefSoftmax.lean ====
/-
  The reference's softmax, read row by row.

  From the 32×32 scores of a head the reference takes each row's largest entry (a running maximum started at minus
  infinity, and once more against minus infinity), subtracts it, exponentiates, and divides by the row's sum of
  exponentials (a sum started at zero).  Read at an index, row `(b, h, c)` of the result is the specification's
  row-wise softmax of row `(b, h, c)` of the scores, whatever the scores are.
-/
import proofs.«142308_j30777735643434_1_alg».proof.Proof.Gen.ReferenceIdeal.Read
import proofs.«142308_j30777735643434_1_alg».proof.Proof.Spec
import Idealize.ShloMosaic.Lib.IdealHost

noncomputable section

open scoped BigOperators

namespace Cert.Attn.Ref

open Idealize.ShloMosaic Idealize.ShloMosaic.ValueIdx Cert.ReferenceIdeal Cert.ReferenceIdeal.Read Cert.Attn

/-- The scores' shape with its last axis dropped is the rows' shape. -/
theorem reduces_last : S4x6x32x32.Reduces [3] S4x6x32 := by decide

/-- Over row `(p, q, r)` of a `[4, 6, 32, 32]` array reduced along its last axis, the index whose dropped coordinate
    is `k` is `(p, q, r, k)`. -/
theorem lift_last (p : Fin 4) (q : Fin 6) (r : Fin 32) (k : Fin 32) :
    reduces_last.lift (ix3 p q r) k = ix4 p q r k := by
  funext e
  match e with
  | ⟨0, _⟩ => exact Fin.ext rfl
  | ⟨1, _⟩ => exact Fin.ext rfl
  | ⟨2, _⟩ => exact Fin.ext rfl
  | ⟨3, _⟩ => exact Fin.ext rfl

/-- The running maximum of row `(b, h, c)` of the scores, started at minus infinity. -/
theorem runmax_at (x0 : (⟨S4x576x256x256, .f32⟩ : BufTy).Contents (Elt Ideal)) (x1 : (⟨S6x1x1, .f32⟩ : BufTy).Contents (Elt Ideal))
    (b : Fin 4) (h : Fin 6) (c : Fin 32) :
    val_main_v20 (F := Ideal) x0 x1 (ix3 b h c)
      = (Finset.univ : Finset (Fin 32)).fold max ninf fun d => val_main_v19 (F := Ideal) x0 x1 (ix4 b h c d) := by
  unfold val_main_v20
  generalize val_main_v19 (F := Ideal) x0 x1 = s
  refine (Host.reduce_eq_fold_single (FloatOps.maximumf (F := Ideal) (φ := .f32)) s _ _ reduces_last _ (ix3 b h c)).trans ?_
  exact congrArg (fun f => Finset.fold max ninf f (Finset.univ : Finset (Fin 32)))
    (funext fun k => congrArg s (lift_last b h c k))

/-- The reference's weights are the row-wise softmax of its scores. -/
theorem softmax_at (x0 : (⟨S4x576x256x256, .f32⟩ : BufTy).Contents (Elt Ideal)) (x1 : (⟨S6x1x1, .f32⟩ : BufTy).Contents (Elt Ideal))
    (b : Fin 4) (h : Fin 6) (c d : Fin 32) :
    val_main_v30 (F := Ideal) x0 x1 (ix4 b h c d)
      = softmaxRow (fun d' => val_main_v19 (F := Ideal) x0 x1 (ix4 b h c d')) d := by
  have e24 : ∀ d' : Fin 32, idx_main_v23 (idx_main_v24 (ix4 b h c d')) = ix3 b h c := fun d' =>
    funext fun a => Fin.ext (by match a with | ⟨0, _⟩ => rfl | ⟨1, _⟩ => rfl | ⟨2, _⟩ => rfl)
  have e29 : idx_main_v28 (idx_main_v29 (ix4 b h c d)) = ix3 b h c :=
    funext fun a => Fin.ext (by match a with | ⟨0, _⟩ => rfl | ⟨1, _⟩ => rfl | ⟨2, _⟩ => rfl)
  have e27 : ∀ k : Fin 32, idx_main_v27 (ix3 b h c) k = ix4 b h c k := fun k =>
    funext fun a => Fin.ext (by match a with | ⟨0, _⟩ => rfl | ⟨1, _⟩ => rfl | ⟨2, _⟩ => rfl | ⟨3, _⟩ => rfl)
  have hmax : val_main_v22 (F := Ideal) x0 x1 (ix3 b h c)
      = rowMax (fun d' => val_main_v19 (F := Ideal) x0 x1 (ix4 b h c d')) := by
    rw [val_main_v22_apply, val_main_v21_apply, val_main_cst_2_apply, runmax_at]; rfl
  have h26 : ∀ d' : Fin 32, val_main_v26 (F := Ideal) x0 x1 (ix4 b h c d')
      = Ideal.exp (val_main_v19 (F := Ideal) x0 x1 (ix4 b h c d')
          - rowMax (fun d' => val_main_v19 (F := Ideal) x0 x1 (ix4 b h c d'))) := fun d' => by
    rw [val_main_v26_apply, val_main_v25_apply, val_main_v24_apply, val_main_v23_apply, e24 d', hmax,
      Ideal.hostUnary_exp_def, Ideal.subf_def]
  rw [val_main_v30_apply, val_main_v29_apply, val_main_v28_apply, e29, val_main_v27_apply, val_main_cst_3_apply,
    Ideal.hostDivf_def]
  simp only [e27, h26, Ideal.ofBits_def, Ideal.ofBits_zero_f32, zero_add]
  rfl

end Cert.Attn.Ref

end
-- ==== Proof.RefValue.lean ====
/-
  The reference computes the specification.

  The reference's last two operations apply the softmax weights of a head to the head's value rows (a sum over the 32
  rows) and regroup the result `[4, 6, 32, 65536]` as `[4, 192, 256, 256]`: entry `(b, ch, i, j)` of the result is
  entry `(b, ch / 32, ch % 32, 256 i + j)` of the product.  With the scores, the softmax and the value rows read
  entry by entry, the reference's result is the specification's `G` of the two arguments, provided the first
  argument's entries are real numbers (the scores' two arrangements agree only then); and so the reference's run
  ends with its result buffer holding `G` of the arguments, which are unchanged.
-/
import proofs.«142308_j30777735643434_1_alg».proof.Proof.Gen.ReferenceIdeal.Read
import proofs.«142308_j30777735643434_1_alg».proof.Proof.Spec
import proofs.«142308_j30777735643434_1_alg».proof.Proof.RefFinite
import proofs.«142308_j30777735643434_1_alg».proof.Proof.RefScore
import proofs.«142308_j30777735643434_1_alg».proof.Proof.RefSoftmax

noncomputable section

open scoped BigOperators

namespace Cert.Attn.Ref

open Idealize.ShloMosaic Idealize.SL.Sem
open Idealize.ShloMosaic.ValueIdx Cert.ReferenceIdeal.Read Cert.Attn

/-- The weights applied to the value rows: entry `(b, h, c, n)` is the sum over `d` of weight `(b, h, c, d)` times
    value row `d` of head `h` at `n`. -/
theorem apply_at (x0 : X0) (x1 : X1) (b : Fin 4) (h : Fin 6) (c : Fin 32) (n : Fin 65536) :
    val_main_v31 (F := Ideal) x0 x1 (ix4 b h c n)
      = ∑ d : Fin 32, val_main_v30 (F := Ideal) x0 x1 (ix4 b h c d) * flat x0 (ix3 b (vch h d) n) := by
  have el : ∀ k : Fin 32, lidx_main_v31 (ix4 b h c n) k = ix4 b h c k := fun k =>
    funext fun a => Fin.ext (by match a with | ⟨0, _⟩ => rfl | ⟨1, _⟩ => rfl | ⟨2, _⟩ => rfl | ⟨3, _⟩ => rfl)
  have er : ∀ k : Fin 32, ridx_main_v31 (ix4 b h c n) k = ix4 b h k n := fun k =>
    funext fun a => Fin.ext (by match a with | ⟨0, _⟩ => rfl | ⟨1, _⟩ => rfl | ⟨2, _⟩ => rfl | ⟨3, _⟩ => rfl)
  rw [val_main_v31_apply]
  simp only [el, er, v_at]

/-- Entry `(b, ch, i, j)` of the regrouped result is entry `(b, ch / 32, ch % 32, 256 i + j)` of the product. -/
theorem idx_out (b : Fin 4) (ch : Fin 192) (p q : Fin 256) :
    idx_main_v32 (ix4 b ch p q) = ix4 b (headOf ch) (rowOf ch) (pos p q) := by
  have hb := b.isLt; have hch := ch.isLt; have hp := p.isLt; have hq := q.isLt
  funext a
  refine Fin.ext ?_
  match a with
  | ⟨0, _⟩ => show (((b.val * 192 + ch.val) * 256 + p.val) * 256 + q.val) / 12582912 = b.val; omega
  | ⟨1, _⟩ => show (((b.val * 192 + ch.val) * 256 + p.val) * 256 + q.val) / 2097152 % 6 = ch.val / 32; omega
  | ⟨2, _⟩ => show (((b.val * 192 + ch.val) * 256 + p.val) * 256 + q.val) / 65536 % 32 = ch.val % 32; omega
  | ⟨3, _⟩ => show (((b.val * 192 + ch.val) * 256 + p.val) * 256 + q.val) % 65536 = 256 * p.val + q.val; omega

/-- The reference's result is the specification's, for a first argument of real numbers. -/
theorem ref_eq_G (x0 : X0) (x1 : X1) (hx : ∀ i, ∃ r : ℝ, x0 i = (r : EReal)) :
    val_main_v32 (F := Ideal) x0 x1 = G x0 x1 := by
  funext i
  obtain ⟨b, ch, p, q, rfl⟩ : ∃ (b : Fin 4) (ch : Fin 192) (p q : Fin 256), i = ix4 b ch p q :=
    ⟨i 0, i 1, i 2, i 3, eq_ix4 i⟩
  rw [val_main_v32_apply, idx_out, apply_at]
  show _ = ∑ d : Fin 32, attn (flat x0) x1 (ix4 b (headOf ch) (rowOf ch) d)
      * flat x0 (ix3 b (vch (headOf ch) d) (pos p q))
  refine Finset.sum_congr rfl fun d _ => ?_
  rw [softmax_at]
  simp only [score_at x0 x1 hx]
  rfl

/-- the reference's run, its result named: it ends with main_v32 holding Cert.Attn.G of the two arguments, which are unchanged -/
theorem run_G [Cert.ReferenceIdeal.Facts] (m' : (ℓ : Loc Cert.ReferenceIdeal.nD Cert.ReferenceIdeal.τ Cert.ReferenceIdeal.sig) → Buf (Elt Ideal) ℓ) (g' : Dev Cert.ReferenceIdeal.nD → PrngReg)
    (hfin : ∀ (c : Dev Cert.ReferenceIdeal.nD) i, ∃ r : ℝ, m' ((c.tc : Thread Cert.ReferenceIdeal.nD Cert.ReferenceIdeal.τ).loc Cert.ReferenceIdeal.main_arg0) i = (r : EReal)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = Cert.Attn.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v32_eq m' c).trans (ref_eq_G _ _ (hfin c))), (h c).2⟩)
    (Cert.ReferenceIdeal.Value.run (F := Ideal) m' g')

end Cert.Attn.Ref

end
-- ==== Proof.lean ====
/-
  The certificate's five claims.

  The kernel's program runs as four segments (a reshape, two kernel regions, a reshape) and leaves its arguments
  unchanged: the frame of the word-level program and of its idealization. At the ideal instance its result buffer
  ends at the specification `Cert.Attn.G` of its arguments, and so does the reference's when the first argument holds
  real numbers: dividing the rows by their floored norms before or after the inner product is the same number only
  then, and the precondition says exactly that. The idealization rewrote nothing, so it preserves the program
  trivially.
-/
import proofs.«142308_j30777735643434_1_alg».proof.Defs
import proofs.«142308_j30777735643434_1_alg».proof.Proof.Gen.Kernel
import proofs.«142308_j30777735643434_1_alg».proof.Proof.Gen.KernelIdeal
import proofs.«142308_j30777735643434_1_alg».proof.Proof.Gen.ReferenceIdeal
import proofs.«142308_j30777735643434_1_alg».proof.Proof.Gen.Pre_finite_inputs
import proofs.«142308_j30777735643434_1_alg».proof.Proof.K.Run
import proofs.«142308_j30777735643434_1_alg».proof.Proof.KI.Result
import proofs.«142308_j30777735643434_1_alg».proof.Proof.RefValue
import Idealize.ShloMosaic.Adequacy
import Idealize.ShloMosaic.Init

noncomputable section

namespace Cert.Proof

open Idealize.ShloMosaic Idealize.SL.Sem

/-- The word-level program ends with its arguments as launched. -/
theorem frame_p : Cert.frame_Kernel := fun m ρ _ =>
  (θ_run Cert.Kernel.defs _ _).mono (fun _ h c => (h c).2) (Cert.Kernel.Hand.run_main (F := Bits) m ρ)

/-- So does its idealization. -/
theorem frame_pi : Cert.frame_KernelIdeal := fun m ρ _ =>
  (θ_run Cert.KernelIdeal.defs _ _).mono (fun _ h c => (h c).2) (Cert.KernelIdeal.Hand.run_main (F := Ideal) m ρ)

/-- And the reference, a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end at `Cert.Attn.G` of the arguments; the reference's side uses that the
    first argument's entries are real numbers, which the precondition gives. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨?_, (h c).2⟩)
      (Cert.Attn.Ref.run_G m' ρ' (fun c => by
        have := Cert.Attn.Ref.finite_arg0 _ _ (hpre c)
        rw [(hagree c).1]; exact this))
    rw [(h c).1, (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
